-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S4194304x16 : Shape := ⟨2, ![4194304, 16]⟩
abbrev S2048x2048 : Shape := ⟨2, ![2048, 2048]⟩
abbrev S256x32 : Shape := ⟨2, ![256, 32]⟩
abbrev S32 : Shape := ⟨1, ![32]⟩
abbrev S32x32 : Shape := ⟨2, ![32, 32]⟩
abbrev S16x32 : Shape := ⟨2, ![16, 32]⟩
abbrev S512x256 : Shape := ⟨2, ![512, 256]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S4194304x16 : S_.BroadcastsInDim S4194304x16 (![] : Fin 0 → Fin S4194304x16.rank)
  reducesTo_S4194304x16_S_d0_1 : S4194304x16.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  main_v88

def fn_part4 {F : FTy → Type} [FloatOps F] (main_arg14 : FVec F S32x32 .f32) (main_arg15 : FVec F S32 .f32) (main_arg16 : FVec F S512x256 .f32) (main_arg17 : FVec F S256 .f32) (main_v63 : IVec S_ 1) (main_v67 : IVec S_ 1) : IVec S_ 1 :=
  let main_v68 : IVec S_ 1 := andi main_v63 main_v67
  let main_v69 : FVec F S32x32 .f32 := Host.absf main_arg14
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S512x256 .f32 := Host.absf main_arg16
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_v83 main_v84 main_cst_32

def fn_part3 {F : FTy → Type} [FloatOps F] (main_arg11 : FVec F S32 .f32) (main_arg12 : FVec F S16x32 .f32) (main_arg13 : FVec F S32 .f32) (main_arg14 : FVec F S32x32 .f32) (main_arg15 : FVec F S32 .f32) (main_arg16 : FVec F S512x256 .f32) (main_arg17 : FVec F S256 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S16x32 .f32 := Host.absf main_arg12
  let main_cst_22 : FVec F S_ .f32 := constant S_ .f32 0x7F800000#32
  let main_v60 : FVec F S16x32 .f32 := broadcastInDim S16x32 ![] bcast_S_S16x32 main_cst_22
  let main_v61 : IVec S16x32 1 := cmpf .olt main_v59 main_v60
  let main_c_23 : IVec S_ 1 := constantI S_ 1 1#1
  let main_v62 : IVec S_ 1 := (fun x v => Host.reduce IntOp.andi x v reducesTo_S16x32_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_arg16 main_arg17 main_v63 main_v67

def fn_part2 {F : FTy → Type} [FloatOps F] (main_arg7 : FVec F S32 .f32) (main_arg8 : FVec F S256x32 .f32) (main_arg9 : FVec F S32 .f32) (main_arg10 : FVec F S32x32 .f32) (main_arg11 : FVec F S32 .f32) (main_arg12 : FVec F S16x32 .f32) (main_arg13 : FVec F S32 .f32) (main_arg14 : FVec F S32x32 .f32) (main_arg15 : FVec F S32 .f32) (main_arg16 : FVec F S512x256 .f32) (main_arg17 : FVec F S256 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S256x32 .f32 := Host.absf main_arg8
  let main_cst_14 : FVec F S_ .f32 := constant S_ .f32 0x7F800000#32
  let main_v40 : FVec F S256x32 .f32 := broadcastInDim S256x32 ![] bcast_S_S256x32 main_cst_14
  let main_v41 : IVec S256x32 1 := cmpf .olt main_v39 main_v40
  let main_c_15 : IVec S_ 1 := constantI S_ 1 1#1
  let main_v42 : IVec S_ 1 := (fun x v => Host.reduce IntOp.andi x v reducesTo_S256x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_arg12 main_arg13 main_arg14 main_arg15 main_arg16 main_arg17 main_v48 main_v49 main_v50

def fn_part1 {F : FTy → Type} [FloatOps F] (main_arg4 : FVec F S256x32 .f32) (main_arg5 : FVec F S32 .f32) (main_arg6 : FVec F S32x32 .f32) (main_arg7 : FVec F S32 .f32) (main_arg8 : FVec F S256x32 .f32) (main_arg9 : FVec F S32 .f32) (main_arg10 : FVec F S32x32 .f32) (main_arg11 : FVec F S32 .f32) (main_arg12 : FVec F S16x32 .f32) (main_arg13 : FVec F S32 .f32) (main_arg14 : FVec F S32x32 .f32) (main_arg15 : FVec F S32 .f32) (main_arg16 : FVec F S512x256 .f32) (main_arg17 : FVec F S256 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2048x256 .f32) (main_arg1 : FVec F S2048x256 .f32) (main_arg2 : FVec F S4194304x16 .f32) (main_arg3 : FVec F S2048x2048 .f32) (main_arg4 : FVec F S256x32 .f32) (main_arg5 : FVec F S32 .f32) (main_arg6 : FVec F S32x32 .f32) (main_arg7 : FVec F S32 .f32) (main_arg8 : FVec F S256x32 .f32) (main_arg9 : FVec F S32 .f32) (main_arg10 : FVec F S32x32 .f32) (main_arg11 : FVec F S32 .f32) (main_arg12 : FVec F S16x32 .f32) (main_arg13 : FVec F S32 .f32) (main_arg14 : FVec F S32x32 .f32) (main_arg15 : FVec F S32 .f32) (main_arg16 : FVec F S512x256 .f32) (main_arg17 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S4194304x16 .f32 := Host.absf main_arg2
  let main_cst_2 : FVec F S_ .f32 := constant S_ .f32 0x7F800000#32
  let main_v10 : FVec F S4194304x16 .f32 := broadcastInDim S4194304x16 ![] bcast_S_S4194304x16 main_cst_2
  let main_v11 : IVec S4194304x16 1 := cmpf .olt main_v9 main_v10
  let main_c_3 : IVec S_ 1 := constantI S_ 1 1#1
  let main_v12 : IVec S_ 1 := (fun x v => Host.reduce IntOp.andi x v reducesTo_S4194304x16_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S2048x256 : Shape := ⟨2, ![2048, 256]⟩
abbrev S4194304x16 : Shape := ⟨2, ![4194304, 16]⟩
abbrev S2048x2048 : Shape := ⟨2, ![2048, 2048]⟩
abbrev S256x32 : Shape := ⟨2, ![256, 32]⟩
abbrev S32 : Shape := ⟨1, ![32]⟩
abbrev S32x32 : Shape := ⟨2, ![32, 32]⟩
abbrev S16x32 : Shape := ⟨2, ![16, 32]⟩
abbrev S512x256 : Shape := ⟨2, ![512, 256]⟩
abbrev S256 : Shape := ⟨1, ![256]⟩
abbrev S2048x32 : Shape := ⟨2, ![2048, 32]⟩
abbrev S1x32 : Shape := ⟨2, ![1, 32]⟩
abbrev S256x256 : Shape := ⟨2, ![256, 256]⟩
abbrev S512x2048 : Shape := ⟨2, ![512, 2048]⟩
abbrev S512x32 : Shape := ⟨2, ![512, 32]⟩
abbrev S32x2048 : Shape := ⟨2, ![32, 2048]⟩
abbrev S512 : Shape := ⟨1, ![512]⟩
abbrev S512x1 : Shape := ⟨2, ![512, 1]⟩
abbrev S1x256 : Shape := ⟨2, ![1, 256]⟩

abbrev nBuf : Space → Nat
  | .hbm => 30
  | .vmem => 15
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S4194304x16, .f32⟩
  | .hbm, ⟨3, _⟩ => ⟨S2048x2048, .f32⟩
  | .hbm, ⟨4, _⟩ => ⟨S256x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S256x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S16x32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S512x256, .f32⟩
  | .hbm, ⟨17, _⟩ => ⟨S256, .f32⟩
  | .hbm, ⟨18, _⟩ => ⟨S2048x32, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S256x256, .f32⟩
  | .hbm, ⟨28, _⟩ => ⟨S256x256, .f32⟩
  | .hbm, ⟨29, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S512x2048, .f32⟩
  | .local _ .vmem, ⟨4, _⟩ => ⟨S512x2048, .f32⟩
  | .local _ .vmem, ⟨5, _⟩ => ⟨S2048x32, .f32⟩
  | .local _ .vmem, ⟨6, _⟩ => ⟨S256x32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S256x256, .f32⟩
  | .local _ .vmem, ⟨11, _⟩ => ⟨S256x256, .f32⟩
  | .local _ .vmem, ⟨12, _⟩ => ⟨S256, .f32⟩
  | .local _ .vmem, ⟨13, _⟩ => ⟨S512x256, .f32⟩
  | .local _ .vmem, ⟨14, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  slices_S512x256_S256x256_0_0 : S512x256.Slices ![0, 0] S256x256
  slices_S512x256_S256x256_256_0 : S512x256.Slices ![256, 0] S256x256
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  inb_S512x2048_S512x2048_0_0 : ∀ a, (![0, 0] : Fin 2 → Nat) a + S512x2048.size a ≤ S512x2048.size a
  h_S512x2048 : 0 < S512x2048.numel
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S32x32_S32x32_0_0 : ∀ a, (![0, 0] : Fin 2 → Nat) a + S32x32.size a ≤ S32x32.size a
  h_S32x32 : 0 < S32x32.numel
  transposes_S2048x32_p1_0_S32x2048 : S2048x32.Transposes [1, 0] S32x2048
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  dot_S2048x256_S256x32_S2048x32_1_0_0_1_n_n_wf : DotDims.WF S2048x256 S256x32 S2048x32 [1] [0] [0] [1] [] []
  dot_S2048x32_S32x32_S2048x32_1_0_0_1_n_n_wf : DotDims.WF S2048x32 S32x32 S2048x32 [1] [0] [0] [1] [] []
  dot_S512x256_S256x32_S512x32_1_0_0_1_n_n_wf : DotDims.WF S512x256 S256x32 S512x32 [1] [0] [0] [1] [] []
  dot_S512x32_S32x32_S512x32_1_0_0_1_n_n_wf : DotDims.WF S512x32 S32x32 S512x32 [1] [0] [0] [1] [] []
  dot_S512x32_S32x2048_S512x2048_1_0_0_1_n_n_wf : DotDims.WF S512x32 S32x2048 S512x2048 [1] [0] [0] [1] [] []
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .f32 = 32 ∨ (Rect.block (s := S2048x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S2048x32.size a
  hwx0_3 : ∀ i : grid0.Coords, EltTy.bits .f32 = 32 ∨ (Rect.block (s := S2048x32) S2048x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S2048x256.size a
  hwx0_11 : ∀ i : grid0.Coords, EltTy.bits .f32 = 32 ∨ (Rect.block (s := S2048x256) S512x256.size (cc0_transform_11 i) (hinb0_11 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x2048_S512x2048_1_0_0_1_n_n : DotDims S512x32 S32x2048 S512x2048 where
  lhsContracting := [1]
  rhsContracting := [0]
  lhsNonContracting := [0]
  rhsNonContracting := [1]
  lhsBatch := []
  rhsBatch := []
  wf := dot_S512x32_S32x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg17) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2048x256 : Shape := ⟨2, ![2048, 256]⟩
abbrev S4194304x16 : Shape := ⟨2, ![4194304, 16]⟩
abbrev S2048x2048 : Shape := ⟨2, ![2048, 2048]⟩
abbrev S256x32 : Shape := ⟨2, ![256, 32]⟩
abbrev S32 : Shape := ⟨1, ![32]⟩
abbrev S32x32 : Shape := ⟨2, ![32, 32]⟩
abbrev S16x32 : Shape := ⟨2, ![16, 32]⟩
abbrev S512x256 : Shape := ⟨2, ![512, 256]⟩
abbrev S256 : Shape := ⟨1, ![256]⟩
abbrev S2048x32 : Shape := ⟨2, ![2048, 32]⟩
abbrev S1x32 : Shape := ⟨2, ![1, 32]⟩
abbrev S4194304x32 : Shape := ⟨2, ![4194304, 32]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S1x256 : Shape := ⟨2, ![1, 256]⟩

abbrev nBuf : Space → Nat
  | .hbm => 83
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S4194304x16, .f32⟩
  | .hbm, ⟨3, _⟩ => ⟨S2048x2048, .f32⟩
  | .hbm, ⟨4, _⟩ => ⟨S256x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S256x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S16x32, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S512x256, .f32⟩
  | .hbm, ⟨17, _⟩ => ⟨S256, .f32⟩
  | .hbm, ⟨18, _⟩ => ⟨S2048x32, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S1x32, .f32⟩
  | .hbm, ⟨34, _⟩ => ⟨S2048x32, .f32⟩
  | .hbm, ⟨35, _⟩ => ⟨S2048x32, .f32⟩
  | .hbm, ⟨36, _⟩ => ⟨S4194304x32, .f32⟩
  | .hbm, ⟨37, _⟩ => ⟨S1x32, .f32⟩
  | .hbm, ⟨38, _⟩ => ⟨S4194304x32, .f32⟩
  | .hbm, ⟨39, _⟩ => ⟨S4194304x32, .f32⟩
  | .hbm, ⟨40, _⟩ => ⟨S4194304x32, .f32⟩
  | .hbm, ⟨41, _⟩ => ⟨S4194304x32, .f32⟩
  | .hbm, ⟨42, _⟩ => ⟨S1x32, .f32⟩
  | .hbm, ⟨43, _⟩ => ⟨S4194304x32, .f32⟩
  | .hbm, ⟨44, _⟩ => ⟨S4194304x32, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x256, .f32⟩
  | .hbm, ⟨62, _⟩ => ⟨S2048x256, .f32⟩
  | .hbm, ⟨63, _⟩ => ⟨S2048x256, .f32⟩
  | .hbm, ⟨64, _⟩ => ⟨S_, .f32⟩
  | .hbm, ⟨65, _⟩ => ⟨S2048x256, .f32⟩
  | .hbm, ⟨66, _⟩ => ⟨S2048x256, .f32⟩
  | .hbm, ⟨67, _⟩ => ⟨S_, .f32⟩
  | .hbm, ⟨68, _⟩ => ⟨S2048x256, .f32⟩
  | .hbm, ⟨69, _⟩ => ⟨S2048x256, .f32⟩
  | .hbm, ⟨70, _⟩ => ⟨S2048x512, .f32⟩
  | .hbm, ⟨71, _⟩ => ⟨S2048x256, .f32⟩
  | .hbm, ⟨72, _⟩ => ⟨S1x256, .f32⟩
  | .hbm, ⟨73, _⟩ => ⟨S2048x256, .f32⟩
  | .hbm, ⟨74, _⟩ => ⟨S2048x256, .f32⟩
  | .hbm, ⟨75, _⟩ => ⟨S2048x256, .f32⟩
  | .hbm, ⟨76, _⟩ => ⟨S2048x256, .f32⟩
  | .hbm, ⟨77, _⟩ => ⟨S_, .f32⟩
  | .hbm, ⟨78, _⟩ => ⟨S2048x256, .f32⟩
  | .hbm, ⟨79, _⟩ => ⟨S2048x256, .f32⟩
  | .hbm, ⟨80, _⟩ => ⟨S_, .f32⟩
  | .hbm, ⟨81, _⟩ => ⟨S2048x256, .f32⟩
  | .hbm, ⟨82, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_cst_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_2 : Ref sig .tc := ⟨.hbm, 64, rfl⟩
abbrev main_v43 : Ref sig .tc := ⟨.hbm, 65, rfl⟩
abbrev main_v44 : Ref sig .tc := ⟨.hbm, 66, rfl⟩
abbrev main_cst_3 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S1x32_S4194304x32_0_1 : S1x32.BroadcastsInDim S4194304x32 (![0, 1] : Fin 2 → Fin S4194304x32.rank)
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S_S2048x256 : S_.BroadcastsInDim S2048x256 (![] : Fin 0 → Fin S2048x256.rank)
  concatenates_S2048x256_S2048x256_S2048x512_d1 : Shape.Concatenates [S2048x256, S2048x256] S2048x512 1
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  dot_S2048x256_S256x32_S2048x32_1_0_0_1_n_n_wf : DotDims.WF S2048x256 S256x32 S2048x32 [1] [0] [0] [1] [] []
  dot_S2048x32_S32x32_S2048x32_1_0_0_1_n_n_wf : DotDims.WF S2048x32 S32x32 S2048x32 [1] [0] [0] [1] [] []
  dot_S4194304x16_S16x32_S4194304x32_1_0_0_1_n_n_wf : DotDims.WF S4194304x16 S16x32 S4194304x32 [1] [0] [0] [1] [] []
  dot_S4194304x32_S32x32_S4194304x32_1_0_0_1_n_n_wf : DotDims.WF S4194304x32 S32x32 S4194304x32 [1] [0] [0] [1] [] []
  dot_S2048x32_S2048x32_S2048x2048_1_1_0_0_n_n_wf : DotDims.WF S2048x32 S2048x32 S2048x2048 [1] [1] [0] [0] [] []
  dot_S2048x2048_S2048x256_S2048x256_1_0_0_1_n_n_wf : DotDims.WF S2048x2048 S2048x256 S2048x256 [1] [0] [0] [1] [] []
  dot_S2048x512_S512x256_S2048x256_1_0_0_1_n_n_wf : DotDims.WF S2048x512 S512x256 S2048x256 [1] [0] [0] [1] [] []

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S4194304x16_S16x32_S4194304x32_1_0_0_1_n_n : DotDims S4194304x16 S16x32 S4194304x32 where
  lhsContracting := [1]
  rhsContracting := [0]
  lhsNonContracting := [0]
  rhsNonContracting := [1]
  lhsBatch := []
  rhsBatch := []
  wf := dot_S4194304x16_S16x32_S4194304x32_1_0_0_1_n_n_wf
def dot_S4194304x32_S32x32_S4194304x32_1_0_0_1_n_n : DotDims S4194304x32 S32x32 S4194304x32 where
  lhsContracting := [1]
  rhsContracting := [0]
  lhsNonContracting := [0]
  rhsNonContracting := [1]
  lhsBatch := []
  rhsBatch := []
  wf := dot_S4194304x32_S32x32_S4194304x32_1_0_0_1_n_n_wf
def dot_S2048x32_S2048x32_S2048x2048_1_1_0_0_n_n : DotDims S2048x32 S2048x32 S2048x2048 where
  lhsContracting := [1]
  rhsContracting := [1]
  lhsNonContracting := [0]
  rhsNonContracting := [0]
  lhsBatch := []
  rhsBatch := []
  wf := dot_S2048x32_S2048x32_S2048x2048_1_1_0_0_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

class Facts : Prop extends Facts₀ where

variable [Facts]
-- ==== Proof.AttnRow.lean ====
/-
  One row of the attention layer, as a function of that row's inputs and of the shared tables.

  A query row `xr` (its features) is sent through a two-layer perceptron with a tanh between the layers to a hidden
  vector `q`; its score against neighbour `M` is the inner product of `q` with the neighbour's hidden vector `na M`,
  multiplied by the mask entry `mr M`; the scores of the row are turned into weights by the usual softmax (subtract the
  row's maximum, exponentiate, divide by the row's sum); the weights average the neighbours' features, and a logistic is
  applied; finally the row's own features and that average go through one linear map, written as two blocks `wt` (for
  the row's features) and `wb` (for the average), plus a bias, and a last logistic.

  Everything is on the extended reals, with the operations the exact instance gives the programs, and every sum is over a
  `Fin`. No property of the inputs is used anywhere: the two programs compute this same function, term by term.

  The one algebraic fact is `sum_split`: a sum over 512 indices is the sum over the first 256 plus the sum over the
  last 256 — what turns one product with the stacked map into the two products with its blocks.
-/
import Idealize.ShloMosaic.PureOps.Ideal
import Idealize.ShloMosaic.Lib.IdealHost
import Idealize.ShloMosaic.Lib.ValueIdx

noncomputable section

namespace Cert.AttnRow

open Idealize.ShloMosaic Idealize.ShloMosaic.ValueIdx
open scoped BigOperators

/-- The word the programs print for minus infinity, read at the exact instance. -/
abbrev negInf : EReal := Ideal.ofBits .f32 0xFF800000#32

/-- A linear layer at one row: `(h · w + b) j`. -/
def dense {K N : ℕ} (h : Fin K → EReal) (w : Fin K → Fin N → EReal) (b : Fin N → EReal) (j : Fin N) : EReal :=
  (∑ k : Fin K, h k * w k j) + b j

/-- Linear, tanh, linear. -/
def hidden {D H : ℕ} (xr : Fin D → EReal) (w1 : Fin D → Fin H → EReal) (b1 : Fin H → EReal)
    (w2 : Fin H → Fin H → EReal) (b2 : Fin H → EReal) : Fin H → EReal :=
  dense (fun k => Ideal.tanh (dense xr w1 b1 k)) w2 b2

/-- The masked score of the row against neighbour `M`. -/
def score {H L : ℕ} (q : Fin H → EReal) (na : Fin L → Fin H → EReal) (mr : Fin L → EReal) (M : Fin L) : EReal :=
  (∑ j : Fin H, q j * na M j) * mr M

/-- The row's maximum as both programs compute it: the fold of `max` from minus infinity, and once more `max` with
    minus infinity. -/
def rowMax {L : ℕ} (s : Fin L → EReal) : EReal :=
  max negInf ((Finset.univ : Finset (Fin L)).fold max negInf s)

/-- Softmax of a row of scores. -/
def softmax {L : ℕ} (s : Fin L → EReal) (M : Fin L) : EReal :=
  Ideal.div (Ideal.exp (s M - rowMax s)) (∑ M' : Fin L, Ideal.exp (s M' - rowMax s))

/-- The weighted average of the neighbours' features, through a logistic. -/
def aggregate {L D : ℕ} (p : Fin L → EReal) (nb : Fin L → Fin D → EReal) (d : Fin D) : EReal :=
  Ideal.logistic (∑ M : Fin L, p M * nb M d)

/-- The last layer on the row's features and the average, the linear map given by its two blocks. -/
def output {D O : ℕ} (xr ag : Fin D → EReal) (wt wb : Fin D → Fin O → EReal) (fb : Fin O → EReal) (c : Fin O) : EReal :=
  Ideal.logistic ((∑ d : Fin D, xr d * wt d c) + (∑ d : Fin D, ag d * wb d c) + fb c)

/-- The whole layer at one row. -/
def attnRow {D H L O : ℕ} (xr : Fin D → EReal) (mr : Fin L → EReal) (nb : Fin L → Fin D → EReal)
    (na : Fin L → Fin H → EReal) (w1 : Fin D → Fin H → EReal) (b1 : Fin H → EReal) (w2 : Fin H → Fin H → EReal)
    (b2 : Fin H → EReal) (wt wb : Fin D → Fin O → EReal) (fb : Fin O → EReal) : Fin O → EReal :=
  output xr (aggregate (softmax (score (hidden xr w1 b1 w2 b2) na mr)) nb) wt wb fb

/-- The row function at equal inputs. -/
theorem attnRow_congr {D H L O : ℕ} {xr xr' : Fin D → EReal} {mr mr' : Fin L → EReal} {nb nb' : Fin L → Fin D → EReal}
    {na na' : Fin L → Fin H → EReal} {w1 w1' : Fin D → Fin H → EReal} {b1 b1' : Fin H → EReal}
    {w2 w2' : Fin H → Fin H → EReal} {b2 b2' : Fin H → EReal} {wt wt' wb wb' : Fin D → Fin O → EReal} {fb fb' : Fin O → EReal}
    (h0 : xr = xr') (h1 : mr = mr') (h2 : nb = nb') (h3 : na = na') (h4 : w1 = w1') (h5 : b1 = b1') (h6 : w2 = w2')
    (h7 : b2 = b2') (h8 : wt = wt') (h9 : wb = wb') (h10 : fb = fb') :
    attnRow xr mr nb na w1 b1 w2 b2 wt wb fb = attnRow xr' mr' nb' na' w1' b1' w2' b2' wt' wb' fb' := by
  subst h0 h1 h2 h3 h4 h5 h6 h7 h8 h9 h10
  rfl

/-- The layer on all 2048 rows, as one function of the argument arrays, index by index: row `i 0` of the query features
    and of the mask go through `attnRow` with the shared tables — the neighbours' features, their hidden vectors (the second
    perceptron `u1, c1, u2, c2` applied to each neighbour's features), the first perceptron `w1, b1, w2, b2`, and the
    stacked linear map `W` cut into its first and last 256 rows — and the entry read is column `i 1`. -/
def layer (x nb : (⟨2, ![2048, 256]⟩ : Shape).Idx → EReal) (mask : (⟨2, ![2048, 2048]⟩ : Shape).Idx → EReal)
    (w1 : (⟨2, ![256, 32]⟩ : Shape).Idx → EReal) (b1 : (⟨1, ![32]⟩ : Shape).Idx → EReal)
    (w2 : (⟨2, ![32, 32]⟩ : Shape).Idx → EReal) (b2 : (⟨1, ![32]⟩ : Shape).Idx → EReal)
    (u1 : (⟨2, ![256, 32]⟩ : Shape).Idx → EReal) (c1 : (⟨1, ![32]⟩ : Shape).Idx → EReal)
    (u2 : (⟨2, ![32, 32]⟩ : Shape).Idx → EReal) (c2 : (⟨1, ![32]⟩ : Shape).Idx → EReal)
    (W : (⟨2, ![512, 256]⟩ : Shape).Idx → EReal) (fb : (⟨1, ![256]⟩ : Shape).Idx → EReal) :
    (⟨2, ![2048, 256]⟩ : Shape).Idx → EReal := fun i =>
  attnRow (fun k => x (ix2 (i 0) k)) (fun n => mask (ix2 (i 0) n)) (fun n d => nb (ix2 n d))
    (fun n => hidden (fun k => nb (ix2 n k)) (fun k j => u1 (ix2 k j)) (fun j => c1 (ix1 j)) (fun k j => u2 (ix2 k j))
      (fun j => c2 (ix1 j)))
    (fun k j => w1 (ix2 k j)) (fun j => b1 (ix1 j)) (fun k j => w2 (ix2 k j)) (fun j => b2 (ix1 j))
    (fun d c => W (ix2 (⟨d.val, Nat.lt_trans d.isLt (by decide)⟩ : Fin 512) c))
    (fun d c => W (ix2 (⟨256 + d.val, by have := d.isLt; omega⟩ : Fin 512) c)) (fun c => fb (ix1 c)) (i 1)

/-- A sum over 512 indices, split at 256. -/
theorem sum_split (f : Fin 512 → EReal) :
    ∑ k : Fin 512, f k
      = (∑ d : Fin 256, f ⟨d.val, Nat.lt_trans d.isLt (by decide)⟩)
        + ∑ d : Fin 256, f ⟨256 + d.val, by have := d.isLt; omega⟩ :=
  Fin.sum_univ_add (a := 256) (b := 256) (f : Fin (256 + 256) → EReal)

/-- The logistic as the host spells it: one over one plus the exponential of the negated argument, the ones the
    printed word for 1. -/
theorem logistic_spelled (x : EReal) :
    Ideal.div (Ideal.ofBits .f32 0x3F800000#32) (Ideal.ofBits .f32 0x3F800000#32 + Ideal.exp (-x)) = Ideal.logistic x := by
  rw [Ideal.ofBits_one_f32]
  rfl

end Cert.AttnRow

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.KernelRow.lean ====
/-
  The kernel body's arithmetic, read one output entry at a time.

  The body works on a block of rows. Every step of it is row-wise: a product with a weight matrix, a bias added to every
  row, a tanh, the row's scores against all neighbours, the softmax along the row, the weighted average, the last linear
  layer. So entry `(p, c)` of what the body stores is the one-row function `AttnRow.attnRow` of row `p` of the two
  row-blocked inputs and of the whole tables. The lemmas below read each step at `(p, ·)` for any extents — a product
  into a zero accumulator as a sum over the contraction index, the bias through its one-row layout, the row maximum and
  the row sum through their one-column layouts — and `stored_apply` chains them over the body's named payloads.
-/
import proofs.«157529_j54494545052270_2_alg».proof.Proof.Gen.KernelIdeal.Skeleton
import proofs.«157529_j54494545052270_2_alg».proof.Proof.AttnRow
import proofs.«157529_j54494545052270_2_alg».proof.Proof.LibMatmul2d
import proofs.«157529_j54494545052270_2_alg».proof.Proof.LibRowwise
import Idealize.ShloMosaic.Lib.ValueLayout
import Idealize.ShloMosaic.Lib.Pipeline.Value

noncomputable section

namespace Cert.KernelIdeal.RowValue

open Idealize.ShloMosaic Idealize.ShloMosaic.ValueIdx Cert.AttnRow
open scoped BigOperators

/-! ## The steps, for any extents -/

/-- A product into a zero accumulator plus a bias laid out as one row and repeated down the rows: a linear layer at
    row `p`. -/
theorem dense_apply {M K N : ℕ} (a : FVec Ideal ⟨2, ![M, K]⟩ .f32) (w : FVec Ideal ⟨2, ![K, N]⟩ .f32)
    (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (j : Fin N) :
    addf (matmul (DotDims.plain M K N) none a w (constant ⟨2, ![M, N]⟩ .f32 0x00000000#32))
        (broadcastTo ⟨2, ![M, N]⟩ (shapeCast ⟨2, ![1, N]⟩ b h1) h2) (ix2 p j)
      = dense (fun k => a (ix2 p k)) (fun k j => w (ix2 k j)) (fun j => b (ix1 j)) j := by
  show FloatOps.matmul (DotDims.plain M K N) none a w (constant ⟨2, ![M, N]⟩ .f32 0x00000000#32) (ix2 p j)
      + broadcastTo ⟨2, ![M, N]⟩ (shapeCast ⟨2, ![1, N]⟩ b h1) h2 (ix2 p j) = _
  rw [Cert.LibMatmul2d.matmul_plain_apply, Cert.LibRowwise.perColumn_apply]
  rfl

/-- Linear, tanh, linear, at row `p`. -/
theorem hidden_apply {M D H : ℕ} (x : FVec Ideal ⟨2, ![M, D]⟩ .f32) (w1 : FVec Ideal ⟨2, ![D, H]⟩ .f32)
    (b1 : FVec Ideal ⟨1, ![H]⟩ .f32) (w2 : FVec Ideal ⟨2, ![H, H]⟩ .f32) (b2 : FVec Ideal ⟨1, ![H]⟩ .f32)
    (h1 h1' : (⟨1, ![H]⟩ : Shape).ShapeCasts ⟨2, ![1, H]⟩) (h2 h2' : (⟨2, ![1, H]⟩ : Shape).Broadcasts ⟨2, ![M, H]⟩)
    (p : Fin M) (j : Fin H) :
    addf (matmul (DotDims.plain M H H) none
          (tanh (addf (matmul (DotDims.plain M D H) none x w1 (constant ⟨2, ![M, H]⟩ .f32 0x00000000#32))
            (broadcastTo ⟨2, ![M, H]⟩ (shapeCast ⟨2, ![1, H]⟩ b1 h1) h2)))
          w2 (constant ⟨2, ![M, H]⟩ .f32 0x00000000#32))
        (broadcastTo ⟨2, ![M, H]⟩ (shapeCast ⟨2, ![1, H]⟩ b2 h1') h2') (ix2 p j)
      = hidden (fun k => x (ix2 p k)) (fun k j => w1 (ix2 k j)) (fun j => b1 (ix1 j)) (fun k j => w2 (ix2 k j))
          (fun j => b2 (ix1 j)) j := by
  rw [dense_apply]
  exact congrArg (fun h => dense h (fun k j => w2 (ix2 k j)) (fun j => b2 (ix1 j)) j)
    (funext fun k => congrArg Ideal.tanh (dense_apply x w1 b1 h1 h2 p k))

/-- The row's scores: the product with the transposed table of the neighbours' hidden vectors, times the mask. -/
theorem score_apply {M H L : ℕ} (q : FVec Ideal ⟨2, ![M, H]⟩ .f32) (na : FVec Ideal ⟨2, ![L, H]⟩ .f32)
    (mask : FVec Ideal ⟨2, ![M, L]⟩ .f32) (hc : (⟨2, ![L, H]⟩ : Shape).ShapeCasts ⟨2, ![L, H]⟩)
    (ht : (⟨2, ![L, H]⟩ : Shape).Transposes [1, 0] ⟨2, ![H, L]⟩) (p : Fin M) (n : Fin L) :
    mulf (matmul (DotDims.plain M H L) none q (transpose ⟨2, ![H, L]⟩ [1, 0] (shapeCast ⟨2, ![L, H]⟩ na hc) ht)
        (constant ⟨2, ![M, L]⟩ .f32 0x00000000#32)) mask (ix2 p n)
      = score (fun j => q (ix2 p j)) (fun n j => na (ix2 n j)) (fun n => mask (ix2 p n)) n := by
  show FloatOps.matmul (DotDims.plain M H L) none q (transpose ⟨2, ![H, L]⟩ [1, 0] (shapeCast ⟨2, ![L, H]⟩ na hc) ht)
      (constant ⟨2, ![M, L]⟩ .f32 0x00000000#32) (ix2 p n) * mask (ix2 p n) = _
  rw [Cert.LibMatmul2d.matmul_plain_apply, shapeCast_self]
  exact congrArg (· * mask (ix2 p n))
    (Finset.sum_congr rfl fun k _ => congrArg (q (ix2 p k) * ·) (transpose_ix2_apply na ht k n))

/-- The row's maximum, kept as a column and repeated along the row. -/
theorem rowMax_apply {M L : ℕ} (s : FVec Ideal ⟨2, ![M, L]⟩ .f32)
    (hr : (⟨2, ![M, L]⟩ : Shape).Reduces [1] ⟨1, ![M]⟩) (hφ : FKind.Formats .f32)
    (hm : (0xFF800000#32 : BitVec FTy.f32.bits) = FKind.maximumf.neutral .f32 hφ)
    (hc : (⟨1, ![M]⟩ : Shape).ShapeCasts ⟨2, ![M, 1]⟩) (hb : (⟨2, ![M, 1]⟩ : Shape).Broadcasts ⟨2, ![M, L]⟩)
    (p : Fin M) (n : Fin L) :
    broadcastTo ⟨2, ![M, L]⟩ (shapeCast ⟨2, ![M, 1]⟩
        (maximumf (broadcast ⟨1, ![M]⟩ (Scalar.ofBits (F := Ideal) .f32 0xFF800000#32))
          (multiReduction .maximumf [1] ⟨1, ![M]⟩ s 0xFF800000#32 hr hφ hm)) hc) hb (ix2 p n)
      = rowMax (fun n => s (ix2 p n)) := by
  rw [Cert.LibRowwise.perRow_apply]
  show max (Ideal.ofBits .f32 0xFF800000#32) (multiReduction .maximumf [1] ⟨1, ![M]⟩ s 0xFF800000#32 hr hφ hm (ix1 p)) = _
  rw [Cert.LibRowwise.rowMax_apply]
  rfl

/-- Softmax along the row: subtract the maximum, exponentiate, divide by the row's sum. -/
theorem softmax_apply {M L : ℕ} (s : FVec Ideal ⟨2, ![M, L]⟩ .f32)
    (hr : (⟨2, ![M, L]⟩ : Shape).Reduces [1] ⟨1, ![M]⟩) (hφ hφ' : FKind.Formats .f32)
    (hm : (0xFF800000#32 : BitVec FTy.f32.bits) = FKind.maximumf.neutral .f32 hφ)
    (ha : (0x00000000#32 : BitVec FTy.f32.bits) = FKind.add.neutral .f32 hφ')
    (hc hc' : (⟨1, ![M]⟩ : Shape).ShapeCasts ⟨2, ![M, 1]⟩) (hb hb' : (⟨2, ![M, 1]⟩ : Shape).Broadcasts ⟨2, ![M, L]⟩)
    (p : Fin M) (n : Fin L) :
    divf
        (exp (subf s (broadcastTo ⟨2, ![M, L]⟩ (shapeCast ⟨2, ![M, 1]⟩
          (maximumf (broadcast ⟨1, ![M]⟩ (Scalar.ofBits (F := Ideal) .f32 0xFF800000#32))
            (multiReduction .maximumf [1] ⟨1, ![M]⟩ s 0xFF800000#32 hr hφ hm)) hc) hb)))
        (broadcastTo ⟨2, ![M, L]⟩ (shapeCast ⟨2, ![M, 1]⟩
          (multiReduction .add [1] ⟨1, ![M]⟩
            (exp (subf s (broadcastTo ⟨2, ![M, L]⟩ (shapeCast ⟨2, ![M, 1]⟩
              (maximumf (broadcast ⟨1, ![M]⟩ (Scalar.ofBits (F := Ideal) .f32 0xFF800000#32))
                (multiReduction .maximumf [1] ⟨1, ![M]⟩ s 0xFF800000#32 hr hφ hm)) hc) hb)))
            0x00000000#32 hr hφ' ha) hc') hb') (ix2 p n)
      = softmax (fun n => s (ix2 p n)) n := by
  have e : ∀ k : Fin L, exp (subf s (broadcastTo ⟨2, ![M, L]⟩ (shapeCast ⟨2, ![M, 1]⟩
          (maximumf (broadcast ⟨1, ![M]⟩ (Scalar.ofBits (F := Ideal) .f32 0xFF800000#32))
            (multiReduction .maximumf [1] ⟨1, ![M]⟩ s 0xFF800000#32 hr hφ hm)) hc) hb)) (ix2 p k)
        = Ideal.exp (s (ix2 p k) - rowMax (fun n => s (ix2 p n))) := fun k =>
    congrArg (fun t => Ideal.exp (s (ix2 p k) - t)) (rowMax_apply s hr hφ hm hc hb p k)
  show Ideal.div _ _ = _
  rw [e n, Cert.LibRowwise.perRow_apply, Cert.LibRowwise.rowSum_apply]
  exact congrArg (Ideal.div _) (Finset.sum_congr rfl fun k _ => e k)

/-- The weighted average of the neighbours' features through a logistic; the narrowing of both operands to the
    short float format before the product is the identity at the exact instance. -/
theorem aggregate_apply {M L D : ℕ} (w : FVec Ideal ⟨2, ![M, L]⟩ .f32) (nb : FVec Ideal ⟨2, ![L, D]⟩ .f32)
    (hw : FTy.bf16.bits < FTy.f32.bits) (p : Fin M) (d : Fin D) :
    logistic (matmul (DotDims.plain M L D) none (truncf .bf16 w hw) (truncf .bf16 nb hw)
        (constant ⟨2, ![M, D]⟩ .f32 0x00000000#32)) (ix2 p d)
      = aggregate (fun n => w (ix2 p n)) (fun n d => nb (ix2 n d)) d := by
  show Ideal.logistic (FloatOps.matmul (DotDims.plain M L D) none (truncf .bf16 w hw) (truncf .bf16 nb hw)
      (constant ⟨2, ![M, D]⟩ .f32 0x00000000#32) (ix2 p d)) = _
  rw [Cert.LibMatmul2d.matmul_plain_apply]
  rfl

/-- The last layer: two products summed, the bias, a logistic. -/
theorem output_apply {M D O : ℕ} (x ag : FVec Ideal ⟨2, ![M, D]⟩ .f32) (wt wb : FVec Ideal ⟨2, ![D, O]⟩ .f32)
    (fb : FVec Ideal ⟨1, ![O]⟩ .f32) (hct hcb : (⟨2, ![D, O]⟩ : Shape).ShapeCasts ⟨2, ![D, O]⟩)
    (h1 : (⟨1, ![O]⟩ : Shape).ShapeCasts ⟨2, ![1, O]⟩) (h2 : (⟨2, ![1, O]⟩ : Shape).Broadcasts ⟨2, ![M, O]⟩)
    (p : Fin M) (c : Fin O) :
    logistic (addf
        (addf (matmul (DotDims.plain M D O) none x (shapeCast ⟨2, ![D, O]⟩ wt hct) (constant ⟨2, ![M, O]⟩ .f32 0x00000000#32))
          (matmul (DotDims.plain M D O) none ag (shapeCast ⟨2, ![D, O]⟩ wb hcb) (constant ⟨2, ![M, O]⟩ .f32 0x00000000#32)))
        (broadcastTo ⟨2, ![M, O]⟩ (shapeCast ⟨2, ![1, O]⟩ fb h1) h2)) (ix2 p c)
      = output (fun d => x (ix2 p d)) (fun d => ag (ix2 p d)) (fun d c => wt (ix2 d c)) (fun d c => wb (ix2 d c))
          (fun c => fb (ix1 c)) c := by
  show Ideal.logistic
      (FloatOps.matmul (DotDims.plain M D O) none x (shapeCast ⟨2, ![D, O]⟩ wt hct) (constant ⟨2, ![M, O]⟩ .f32 0x00000000#32) (ix2 p c)
        + FloatOps.matmul (DotDims.plain M D O) none ag (shapeCast ⟨2, ![D, O]⟩ wb hcb) (constant ⟨2, ![M, O]⟩ .f32 0x00000000#32) (ix2 p c)
        + broadcastTo ⟨2, ![M, O]⟩ (shapeCast ⟨2, ![1, O]⟩ fb h1) h2 (ix2 p c)) = _
  rw [Cert.LibMatmul2d.matmul_plain_apply, Cert.LibMatmul2d.matmul_plain_apply, Cert.LibRowwise.perColumn_apply,
    shapeCast_self, shapeCast_self]
  rfl

/-! ## The body's stored value -/

open Cert.KernelIdeal Cert.KernelIdeal.Gen in
/-- Entry `(p, c)` of the block the body stores is the one-row function of row `p` of the block of query rows and of
    the block of mask rows, and of the whole tables: the neighbours' features and hidden vectors, the perceptron's
    weights and biases, the two blocks of the last linear map and its bias. -/
theorem stored_apply (v0 : Vec Ideal S512x256 .f32) (v1 : Vec Ideal S2048x256 .f32) (v2 : Vec Ideal S512x2048 .f32)
    (v3 : Vec Ideal S2048x32 .f32) (v5 : Vec Ideal S256x32 .f32) (v7 : Vec Ideal S32 .f32) (v12 : Vec Ideal S32x32 .f32)
    (v14 : Vec Ideal S32 .f32) (v36 v39 : Vec Ideal S256x256 .f32) (v43 : Vec Ideal S256 .f32) (p : Fin 512) (c : Fin 256) :
    k0_pay1 (F := Ideal) v0 (k0_pay2 (F := Ideal) v0 v1 v2 v3 v5 v7 v12 v14) v36 v39 v43 (ix2 p c)
      = attnRow (fun k => v0 (ix2 p k)) (fun n => v2 (ix2 p n)) (fun n d => v1 (ix2 n d)) (fun n j => v3 (ix2 n j))
          (fun k j => v5 (ix2 k j)) (fun j => v7 (ix1 j)) (fun k j => v12 (ix2 k j)) (fun j => v14 (ix1 j))
          (fun d c => v36 (ix2 d c)) (fun d c => v39 (ix2 d c)) (fun c => v43 (ix1 c)) c := by
  refine (output_apply (M := 512) (D := 256) (O := 256) v0 (k0_pay2 (F := Ideal) v0 v1 v2 v3 v5 v7 v12 v14) v36 v39 v43
    _ _ _ _ p c).trans ?_
  refine congrArg (fun ag => output (fun d => v0 (ix2 p d)) ag (fun d c => v36 (ix2 d c)) (fun d c => v39 (ix2 d c))
    (fun c => v43 (ix1 c)) c) (funext fun d => ?_)
  refine (aggregate_apply (M := 512) (L := 2048) (D := 256) _ v1 _ p d).trans ?_
  refine congrArg (fun w => aggregate w (fun n d => v1 (ix2 n d)) d) (funext fun n => ?_)
  refine (softmax_apply (M := 512) (L := 2048) _ _ _ _ _ _ _ _ _ _ p n).trans ?_
  refine congrArg (fun s => softmax s n) (funext fun n' => ?_)
  refine (score_apply (M := 512) (H := 32) (L := 2048) _ v3 v2 _ _ p n').trans ?_
  refine congrArg (fun q => score q (fun n j => v3 (ix2 n j)) (fun n => v2 (ix2 p n)) n') (funext fun j => ?_)
  exact hidden_apply (M := 512) (D := 256) (H := 32) v0 v5 v7 v12 v14 _ _ _ _ p j

end Cert.KernelIdeal.RowValue

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.HostRow.lean ====
/-
  The host program's arithmetic, read one entry at a time.

  The same steps as the kernel's body, in the host's spelling and on all the rows at once: products without an
  accumulator, the bias laid out by two broadcasts, the row maximum and the row sum by the host's reductions and kept as
  a column by a broadcast, the logistic written out as one over one plus the exponential of the negated argument, and the
  last layer as ONE product of the row's features and the average laid side by side with the stacked linear map. Each
  lemma reads one step at `(p, ·)` as the matching piece of `AttnRow`, for any number of rows.
-/
import proofs.«157529_j54494545052270_2_alg».proof.Proof.AttnRow
import proofs.«157529_j54494545052270_2_alg».proof.Proof.LibMatmul2d
import proofs.«157529_j54494545052270_2_alg».proof.Proof.LibRowwise
import proofs.«157529_j54494545052270_2_alg».proof.Proof.LibColumns
import Idealize.ShloMosaic.Lib.ValueLayout
import Idealize.ShloMosaic.Lib.Pipeline.Value
import Idealize.ShloMosaic.Lib.KernelVsHost

noncomputable section

namespace Cert.HostRow

open Idealize.ShloMosaic Idealize.ShloMosaic.ValueIdx Cert.AttnRow
open scoped BigOperators

variable {α : Type}

/-- The shape of a scalar. -/
abbrev S0 : Shape := ⟨0, ![]⟩

/-! ## Layouts -/

/-- A one-column matrix `[a, 1]` repeated along the rows by a broadcast reads, at `(p, c)`, the column at `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- A per-row quantity kept as a column and repeated along the row, both by broadcasts. -/
theorem perRowHost_apply {a b : ℕ} (x : (⟨1, ![a]⟩ : Shape).Idx → α)
    (h₁ : (⟨1, ![a]⟩ : Shape).BroadcastsInDim ⟨2, ![a, 1]⟩ (![0] : Fin 1 → Fin (⟨2, ![a, 1]⟩ : Shape).rank))
    (h₂ : (⟨2, ![a, 1]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![a, 1]⟩ ![0] h₁ x) (ix2 p c) = x (ix1 p) :=
  (broadcastInDim_a1_ab_apply _ h₂ p c).trans (Cert.LibColumns.broadcastInDim_a_a1_apply x h₁ p 0)

/-! ## Products -/

/-- The host's product of an M × K by a K × N operand, at (i, j). -/
theorem dot_plain_apply {M K N : ℕ} (x : FVec Ideal ⟨2, ![M, K]⟩ .f32) (y : FVec Ideal ⟨2, ![K, N]⟩ .f32)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

/-- The host's product of an M × K operand with an N × K operand contracted on its last axis, at (i, j). -/
theorem dot_transposedRhs_apply {M K N : ℕ} (x : FVec Ideal ⟨2, ![M, K]⟩ .f32) (y : FVec Ideal ⟨2, ![N, K]⟩ .f32)
    (i : Fin M) (j : Fin N) :
    Host.dotGeneral (DotDims.transposedRhs M K N) none x y (ix2 i j) = ∑ k : Fin K, x (ix2 i k) * y (ix2 j k) := by
  rw [← matmul_zero_eq_dotGeneral]
  exact Cert.LibMatmul2d.matmul_transposedRhs_apply x y i j

/-! ## The steps -/

/-- A linear layer at row `p`. -/
theorem dense_apply {M K N : ℕ} (a : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ (![1] : Fin 1 → Fin (⟨2, ![1, N]⟩ : Shape).rank))
    (h2 : (⟨2, ![1, N]⟩ : Shape).BroadcastsInDim ⟨2, ![M, N]⟩ (![0, 1] : Fin 2 → Fin (⟨2, ![M, N]⟩ : Shape).rank))
    (p : Fin M) (j : Fin N) :
    addf (Host.dotGeneral (DotDims.plain M K N) none a w)
        (broadcastInDim ⟨2, ![M, N]⟩ ![0, 1] h2 (broadcastInDim ⟨2, ![1, N]⟩ ![1] h1 b)) (ix2 p j)
      = dense (fun k => a (ix2 p k)) (fun k j => w (ix2 k j)) (fun j => b (ix1 j)) j := by
  show Host.dotGeneral (DotDims.plain M K N) none a w (ix2 p j)
      + broadcastInDim ⟨2, ![M, N]⟩ ![0, 1] h2 (broadcastInDim ⟨2, ![1, N]⟩ ![1] h1 b) (ix2 p j) = _
  rw [dot_plain_apply, Cert.LibColumns.perColumnHost_apply]
  rfl

/-- Linear, tanh, linear, at row `p`. -/
theorem hidden_apply {M D H : ℕ} (x : FVec Ideal ⟨2, ![M, D]⟩ .f32) (w1 : FVec Ideal ⟨2, ![D, H]⟩ .f32)
    (b1 : FVec Ideal ⟨1, ![H]⟩ .f32) (w2 : FVec Ideal ⟨2, ![H, H]⟩ .f32) (b2 : FVec Ideal ⟨1, ![H]⟩ .f32)
    (h1 h1' : (⟨1, ![H]⟩ : Shape).BroadcastsInDim ⟨2, ![1, H]⟩ (![1] : Fin 1 → Fin (⟨2, ![1, H]⟩ : Shape).rank))
    (h2 h2' : (⟨2, ![1, H]⟩ : Shape).BroadcastsInDim ⟨2, ![M, H]⟩ (![0, 1] : Fin 2 → Fin (⟨2, ![M, H]⟩ : Shape).rank))
    (p : Fin M) (j : Fin H) :
    addf (Host.dotGeneral (DotDims.plain M H H) none
          (Host.tanh (addf (Host.dotGeneral (DotDims.plain M D H) none x w1)
            (broadcastInDim ⟨2, ![M, H]⟩ ![0, 1] h2 (broadcastInDim ⟨2, ![1, H]⟩ ![1] h1 b1))))
          w2)
        (broadcastInDim ⟨2, ![M, H]⟩ ![0, 1] h2' (broadcastInDim ⟨2, ![1, H]⟩ ![1] h1' b2)) (ix2 p j)
      = hidden (fun k => x (ix2 p k)) (fun k j => w1 (ix2 k j)) (fun j => b1 (ix1 j)) (fun k j => w2 (ix2 k j))
          (fun j => b2 (ix1 j)) j := by
  rw [dense_apply]
  exact congrArg (fun h => dense h (fun k j => w2 (ix2 k j)) (fun j => b2 (ix1 j)) j)
    (funext fun k => congrArg Ideal.tanh (dense_apply x w1 b1 h1 h2 p k))

/-- The row's scores against every neighbour, times the mask. -/
theorem score_apply {M H L : ℕ} (q : FVec Ideal ⟨2, ![M, H]⟩ .f32) (na : FVec Ideal ⟨2, ![L, H]⟩ .f32)
    (mask : FVec Ideal ⟨2, ![M, L]⟩ .f32) (p : Fin M) (n : Fin L) :
    mulf (Host.dotGeneral (DotDims.transposedRhs M H L) none q na) mask (ix2 p n)
      = score (fun j => q (ix2 p j)) (fun n j => na (ix2 n j)) (fun n => mask (ix2 p n)) n := by
  show Host.dotGeneral (DotDims.transposedRhs M H L) none q na (ix2 p n) * mask (ix2 p n) = _
  rw [dot_transposedRhs_apply]
  rfl

/-- The row's maximum, kept as a column and repeated along the row. -/
theorem rowMax_apply {M L : ℕ} (s : FVec Ideal ⟨2, ![M, L]⟩ .f32)
    (hr' : (⟨2, ![M, L]⟩ : Shape).ReducesTo [1] ⟨1, ![M]⟩) (hr : (⟨2, ![M, L]⟩ : Shape).Reduces [1] ⟨1, ![M]⟩)
    (hu : 0 < S0.numel)
    (h0 : S0.BroadcastsInDim ⟨1, ![M]⟩ (![] : Fin 0 → Fin (⟨1, ![M]⟩ : Shape).rank))
    (h₁ : (⟨1, ![M]⟩ : Shape).BroadcastsInDim ⟨2, ![M, 1]⟩ (![0] : Fin 1 → Fin (⟨2, ![M, 1]⟩ : Shape).rank))
    (h₂ : (⟨2, ![M, 1]⟩ : Shape).BroadcastsInDim ⟨2, ![M, L]⟩ (![0, 1] : Fin 2 → Fin (⟨2, ![M, L]⟩ : Shape).rank))
    (p : Fin M) (n : Fin L) :
    broadcastInDim ⟨2, ![M, L]⟩ ![0, 1] h₂ (broadcastInDim ⟨2, ![M, 1]⟩ ![0] h₁
        (maximumf (broadcastInDim ⟨1, ![M]⟩ ![] h0 (constant (F := Ideal) S0 .f32 0xFF800000#32))
          (Host.reduce (FloatOps.maximumf (F := Ideal) (φ := .f32)) s (constant (F := Ideal) S0 .f32 0xFF800000#32) hr' hu)))
        (ix2 p n)
      = rowMax (fun n => s (ix2 p n)) := by
  rw [perRowHost_apply]
  exact (congrArg (max (Ideal.ofBits .f32 0xFF800000#32))
    (Cert.LibRowwise.hostRowMax_apply s (constant (F := Ideal) S0 .f32 0xFF800000#32) hr' hr hu p)).trans rfl

/-- Softmax along the row. -/
theorem softmax_apply {M L : ℕ} (s : FVec Ideal ⟨2, ![M, L]⟩ .f32)
    (hr' : (⟨2, ![M, L]⟩ : Shape).ReducesTo [1] ⟨1, ![M]⟩) (hr : (⟨2, ![M, L]⟩ : Shape).Reduces [1] ⟨1, ![M]⟩)
    (hu : 0 < S0.numel)
    (h0 : S0.BroadcastsInDim ⟨1, ![M]⟩ (![] : Fin 0 → Fin (⟨1, ![M]⟩ : Shape).rank))
    (h₁ : (⟨1, ![M]⟩ : Shape).BroadcastsInDim ⟨2, ![M, 1]⟩ (![0] : Fin 1 → Fin (⟨2, ![M, 1]⟩ : Shape).rank))
    (h₂ : (⟨2, ![M, 1]⟩ : Shape).BroadcastsInDim ⟨2, ![M, L]⟩ (![0, 1] : Fin 2 → Fin (⟨2, ![M, L]⟩ : Shape).rank))
    (p : Fin M) (n : Fin L) :
    Host.divf
        (Host.exp (subf s (broadcastInDim ⟨2, ![M, L]⟩ ![0, 1] h₂ (broadcastInDim ⟨2, ![M, 1]⟩ ![0] h₁
          (maximumf (broadcastInDim ⟨1, ![M]⟩ ![] h0 (constant (F := Ideal) S0 .f32 0xFF800000#32))
            (Host.reduce (FloatOps.maximumf (F := Ideal) (φ := .f32)) s (constant (F := Ideal) S0 .f32 0xFF800000#32) hr' hu))))))
        (broadcastInDim ⟨2, ![M, L]⟩ ![0, 1] h₂ (broadcastInDim ⟨2, ![M, 1]⟩ ![0] h₁
          (Host.reduceAdd
            (Host.exp (subf s (broadcastInDim ⟨2, ![M, L]⟩ ![0, 1] h₂ (broadcastInDim ⟨2, ![M, 1]⟩ ![0] h₁
              (maximumf (broadcastInDim ⟨1, ![M]⟩ ![] h0 (constant (F := Ideal) S0 .f32 0xFF800000#32))
                (Host.reduce (FloatOps.maximumf (F := Ideal) (φ := .f32)) s (constant (F := Ideal) S0 .f32 0xFF800000#32) hr' hu))))))
            (constant (F := Ideal) S0 .f32 0x00000000#32) hr' hu))) (ix2 p n)
      = softmax (fun n => s (ix2 p n)) n := by
  have e : ∀ k : Fin L, Host.exp (subf s (broadcastInDim ⟨2, ![M, L]⟩ ![0, 1] h₂ (broadcastInDim ⟨2, ![M, 1]⟩ ![0] h₁
          (maximumf (broadcastInDim ⟨1, ![M]⟩ ![] h0 (constant (F := Ideal) S0 .f32 0xFF800000#32))
            (Host.reduce (FloatOps.maximumf (F := Ideal) (φ := .f32)) s (constant (F := Ideal) S0 .f32 0xFF800000#32) hr' hu))))) (ix2 p k)
        = Ideal.exp (s (ix2 p k) - rowMax (fun n => s (ix2 p n))) := fun k =>
    congrArg (fun t => Ideal.exp (s (ix2 p k) - t)) (rowMax_apply s hr' hr hu h0 h₁ h₂ p k)
  show Ideal.div _ _ = _
  rw [e n, perRowHost_apply, Cert.LibRowwise.hostRowSum_apply _ _ hr' hr hu p]
  refine congrArg (Ideal.div _) ?_
  show Ideal.ofBits .f32 0x00000000#32 + _ = _
  rw [Ideal.ofBits_zero_f32, zero_add]
  exact Finset.sum_congr rfl fun k _ => e k

/-- The host's spelled-out logistic over a matrix, at an index. -/
theorem logistic_apply {a b : ℕ} (z : FVec Ideal ⟨2, ![a, b]⟩ .f32)
    (h h' : S0.BroadcastsInDim ⟨2, ![a, b]⟩ (![] : Fin 0 → Fin (⟨2, ![a, b]⟩ : Shape).rank)) (i : (⟨2, ![a, b]⟩ : Shape).Idx) :
    Host.divf (broadcastInDim ⟨2, ![a, b]⟩ ![] h (constant (F := Ideal) S0 .f32 0x3F800000#32))
        (addf (broadcastInDim ⟨2, ![a, b]⟩ ![] h' (constant (F := Ideal) S0 .f32 0x3F800000#32)) (Host.exp (Host.negf z))) i
      = Ideal.logistic (z i) := by
  exact logistic_spelled (z i)

/-- The weighted average of the neighbours' features through the logistic. -/
theorem aggregate_apply {M L D : ℕ} (w : FVec Ideal ⟨2, ![M, L]⟩ .f32) (nb : FVec Ideal ⟨2, ![L, D]⟩ .f32)
    (h h' : S0.BroadcastsInDim ⟨2, ![M, D]⟩ (![] : Fin 0 → Fin (⟨2, ![M, D]⟩ : Shape).rank)) (p : Fin M) (d : Fin D) :
    Host.divf (broadcastInDim ⟨2, ![M, D]⟩ ![] h (constant (F := Ideal) S0 .f32 0x3F800000#32))
        (addf (broadcastInDim ⟨2, ![M, D]⟩ ![] h' (constant (F := Ideal) S0 .f32 0x3F800000#32))
          (Host.exp (Host.negf (Host.dotGeneral (DotDims.plain M L D) none w nb)))) (ix2 p d)
      = aggregate (fun n => w (ix2 p n)) (fun n d => nb (ix2 n d)) d := by
  rw [logistic_apply, dot_plain_apply]
  rfl

/-- The last layer: the row's features and the average side by side, ONE product with the stacked linear map, the bias,
    the logistic. The sum over the 512 stacked indices splits at 256 into the two blocks' sums. -/
theorem output_apply {M O : ℕ} (x ag : FVec Ideal ⟨2, ![M, 256]⟩ .f32) (W : FVec Ideal ⟨2, ![512, O]⟩ .f32)
    (fb : FVec Ideal ⟨1, ![O]⟩ .f32)
    (hcat : Shape.Concatenates [(⟨2, ![M, 256]⟩ : Shape), ⟨2, ![M, 256]⟩] ⟨2, ![M, 512]⟩ 1)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![M, O]⟩ (![0, 1] : Fin 2 → Fin (⟨2, ![M, O]⟩ : Shape).rank))
    (h h' : S0.BroadcastsInDim ⟨2, ![M, O]⟩ (![] : Fin 0 → Fin (⟨2, ![M, O]⟩ : Shape).rank)) (p : Fin M) (c : Fin O) :
    Host.divf (broadcastInDim ⟨2, ![M, O]⟩ ![] h (constant (F := Ideal) S0 .f32 0x3F800000#32))
        (addf (broadcastInDim ⟨2, ![M, O]⟩ ![] h' (constant (F := Ideal) S0 .f32 0x3F800000#32))
          (Host.exp (Host.negf (addf
            (Host.dotGeneral (DotDims.plain M 512 O) none
              (concatenate ⟨2, ![M, 512]⟩ 1 [⟨⟨2, ![M, 256]⟩, x⟩, ⟨⟨2, ![M, 256]⟩, ag⟩] hcat) W)
            (broadcastInDim ⟨2, ![M, O]⟩ ![0, 1] h2 (broadcastInDim ⟨2, ![1, O]⟩ ![1] h1 fb)))))) (ix2 p c)
      = output (fun d => x (ix2 p d)) (fun d => ag (ix2 p d))
          (fun d c => W (ix2 (⟨d.val, Nat.lt_trans d.isLt (by decide)⟩ : Fin 512) c))
          (fun d c => W (ix2 (⟨256 + d.val, by have := d.isLt; omega⟩ : Fin 512) c)) (fun c => fb (ix1 c)) c := by
  rw [logistic_apply]
  show Ideal.logistic (Host.dotGeneral (DotDims.plain M 512 O) none
        (concatenate ⟨2, ![M, 512]⟩ 1 [⟨⟨2, ![M, 256]⟩, x⟩, ⟨⟨2, ![M, 256]⟩, ag⟩] hcat) W (ix2 p c)
      + broadcastInDim ⟨2, ![M, O]⟩ ![0, 1] h2 (broadcastInDim ⟨2, ![1, O]⟩ ![1] h1 fb) (ix2 p c)) = _
  rw [dot_plain_apply, Cert.LibColumns.perColumnHost_apply, sum_split]
  refine congrArg Ideal.logistic (congrArg (· + fb (ix1 c)) (congrArg₂ (· + ·)
    (Finset.sum_congr rfl fun d _ => congrArg (· * W (ix2 _ c)) ?_)
    (Finset.sum_congr rfl fun d _ => congrArg (· * W (ix2 _ c)) ?_)))
  · exact concatenate_pair_apply_left (t := ⟨2, ![M, 512]⟩) (s₁ := ⟨2, ![M, 256]⟩) (s₂ := ⟨2, ![M, 256]⟩) (1 : Fin 2) x ag hcat _ rfl (ix2 p d)
      (fun b => match b with | ⟨0, _⟩ => rfl | ⟨1, _⟩ => rfl)
  · exact concatenate_pair_apply_right (t := ⟨2, ![M, 512]⟩) (s₁ := ⟨2, ![M, 256]⟩) (s₂ := ⟨2, ![M, 256]⟩) (1 : Fin 2) x ag hcat _ rfl rfl (ix2 p d)
      (fun b hb => match b, hb with | ⟨0, _⟩, _ => rfl | ⟨1, _⟩, hb => absurd rfl hb)
      (by show d.val + 256 = 256 + d.val; omega)

end Cert.HostRow

end
-- ==== Proof.KernelArray.lean ====
/-
  From the body's blocks to the whole output array.

  The grid has four points; point `t` works on query rows `512 t … 512 t + 511`: it is handed block `t` of the query
  features and of the mask (both cut along the rows), the other nine arrays whole, and writes back block `t` of the
  output. Three of the whole arrays are made by the host before the call: the neighbours' hidden vectors (the second
  perceptron applied to the neighbours' features) and the upper and lower halves of the stacked linear map.

  `stored_eq` says what point `t` writes back is block `t` of ONE function of the argument arrays, `AttnRow.layer`:
  a row of a block is a row of the array, `512 t` further down. The four blocks cover the 2048 rows (row `r` is in
  block `r / 512`), so after the run the output array holds that function everywhere: `run`.
-/
import proofs.«157529_j54494545052270_2_alg».proof.Proof.Gen.KernelIdeal.Value
import proofs.«157529_j54494545052270_2_alg».proof.Proof.KernelRow
import proofs.«157529_j54494545052270_2_alg».proof.Proof.HostRow
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.AttnRow
open Idealize.ShloMosaic.Pipeline (Dat)

variable (m : (ℓ : Loc nD τ sig) → Buf (Elt Ideal) ℓ) (ρ : Dev nD → PrngReg)

/-! ## The arrays the host prepares -/

/-- The neighbours' hidden vectors as the region finds them: the host's perceptron on the neighbours' features. -/
theorem neibTable (c : Dev nD) :
    V m c main_v8
      = addf (F := Ideal) (Host.dotGeneral (φ₁ := .f32) (φ₂ := .f32) dot_S2048x32_S32x32_S2048x32_1_0_0_1_n_n none
          (Host.tanh (addf (Host.dotGeneral (φ₁ := .f32) (φ₂ := .f32) dot_S2048x256_S256x32_S2048x32_1_0_0_1_n_n none
              (m ((c : Thread nD τ).loc main_arg1)) (m ((c : Thread nD τ).loc main_arg8)))
            (broadcastInDim S2048x32 ![0, 1] bcast_S1x32_S2048x32_0_1
              (broadcastInDim S1x32 ![1] bcast_S32_S1x32_1 (m ((c : Thread nD τ).loc main_arg9))))))
          (m ((c : Thread nD τ).loc main_arg10)))
        (broadcastInDim S2048x32 ![0, 1] bcast_S1x32_S2048x32_0_1
          (broadcastInDim S1x32 ![1] bcast_S32_S1x32_1 (m ((c : Thread nD τ).loc main_arg11)))) := by
  dsimp only [Gen.V, Gen.hostOps0]; after_results

/-- Neighbour `n`'s hidden vector. -/
theorem neibTable_apply (c : Dev nD) (n : Fin 2048) (j : Fin 32) :
    V m c main_v8 (ix2 n j)
      = hidden (fun k => m ((c : Thread nD τ).loc main_arg1) (ix2 n k)) (fun k j => m ((c : Thread nD τ).loc main_arg8) (ix2 k j))
          (fun j => m ((c : Thread nD τ).loc main_arg9) (ix1 j)) (fun k j => m ((c : Thread nD τ).loc main_arg10) (ix2 k j))
          (fun j => m ((c : Thread nD τ).loc main_arg11) (ix1 j)) j :=
  (congrFun (neibTable m c) (ix2 n j)).trans
    (Cert.HostRow.hidden_apply (M := 2048) (D := 256) (H := 32) _ _ _ _ _ _ _ _ _ n j)

/-- The upper half of the stacked linear map, as the region finds it. -/
theorem upperHalf (c : Dev nD) :
    V m c main_v9
      = extractStridedSlice S256x256 ![0, 0] (m ((c : Thread nD τ).loc main_arg16)) slices_S512x256_S256x256_0_0 := by
  dsimp only [Gen.V, Gen.hostOps0]; after_results

theorem upperHalf_apply (c : Dev nD) (d e : Fin 256) :
    V m c main_v9 (ix2 d e)
      = m ((c : Thread nD τ).loc main_arg16) (ix2 (⟨d.val, Nat.lt_trans d.isLt (by decide)⟩ : Fin 512) e) :=
  (congrFun (upperHalf m c) (ix2 d e)).trans
    (extractStridedSlice_apply _ _ _ _ _ fun a => match a with
      | ⟨0, _⟩ => (Nat.zero_add _).symm
      | ⟨1, _⟩ => (Nat.zero_add _).symm)

/-- The lower half of the stacked linear map, as the region finds it. -/
theorem lowerHalf (c : Dev nD) :
    V m c main_v10
      = extractStridedSlice S256x256 ![256, 0] (m ((c : Thread nD τ).loc main_arg16)) slices_S512x256_S256x256_256_0 := by
  dsimp only [Gen.V, Gen.hostOps0]; after_results

theorem lowerHalf_apply (c : Dev nD) (d e : Fin 256) :
    V m c main_v10 (ix2 d e)
      = m ((c : Thread nD τ).loc main_arg16) (ix2 (⟨256 + d.val, by have := d.isLt; omega⟩ : Fin 512) e) :=
  (congrFun (lowerHalf m c) (ix2 d e)).trans
    (extractStridedSlice_apply _ _ _ _ _ fun a => match a with
      | ⟨0, _⟩ => rfl
      | ⟨1, _⟩ => (Nat.zero_add _).symm)

/-! ## Which block each point is handed -/

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the four points: the query features, the mask and the output move down one
    block of rows per point and stay in column-block 0; every other array stays at block 0. -/
theorem idx_facts : ∀ t : Fin cfg0.N,
    win0_0.index t (0 : Fin 2) = t.val ∧ win0_0.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_1.index t (0 : Fin 2) = 0 ∧ win0_1.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 1) = 0 ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 2) = 0 ∧ win0_9.index t (1 : Fin 2) = 0 ∧ win0_10.index t (0 : Fin 1) = 0 :=
  (by decide +kernel : ∀ t : Fin grid0.N, _)

/-- Row `p` of block `t` is row `512 t + p` of the array. -/
def rowOf (t : Fin cfg0.N) (p : Fin 512) : Fin 2048 :=
  ⟨512 * t.val + p.val, by have ht : t.val < 4 := t.isLt; have := p.isLt; omega⟩

/-- The query features' block at point `t`. -/
theorem queryBlock (c : Dev nD) (t : Fin cfg0.N) (p : Fin 512) (k : Fin 256) :
    iblk m c 0 t (ix2 p k) = V m c main_arg0 (ix2 (rowOf t p) k) := by
  obtain ⟨e0, e0', _⟩ := idx_facts t
  show V m c main_arg0 (((cfg0.win 0).blk t).view.emb (ix2 p k)) = V m c main_arg0 (ix2 (rowOf t p) k)
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 256 + 1 * k.val = k.val; omega

/-- The mask's block at point `t`. -/
theorem maskBlock (c : Dev nD) (t : Fin cfg0.N) (p : Fin 512) (n : Fin 2048) :
    iblk m c 2 t (ix2 p n) = V m c main_arg3 (ix2 (rowOf t p) n) := by
  obtain ⟨_, _, e2, e2', _⟩ := idx_facts t
  show V m c main_arg3 (((cfg0.win 2).blk t).view.emb (ix2 p n)) = V m c main_arg3 (ix2 (rowOf t p) n)
  refine congrArg _ (funext fun a => Fin.ext ?_)
  match a with
  | ⟨0, _⟩ => show win0_2.index t (0 : Fin 2) * 512 + 1 * p.val = 512 * t.val + p.val; omega
  | ⟨1, _⟩ => show win0_2.index t (1 : Fin 2) * 2048 + 1 * n.val = n.val; omega

/-- The neighbours' features is handed to every point whole. -/
theorem whole1 (c : Dev nD) (t : Fin cfg0.N) (i : Fin 2048) (j : Fin 256) :
    iblk m c 1 t (ix2 i j) = V m c main_arg1 (ix2 i j) := by
  obtain ⟨_, _, _, _, _, _, e1, e1', e3, e3', e4, e4', e5, e6, e6', e7, e8, e8', e9, e9', e10⟩ := idx_facts t
  show V m c main_arg1 (((cfg0.win 1).blk t).view.emb (ix2 i j)) = V m c main_arg1 (ix2 i j)
  refine congrArg _ (funext fun a => Fin.ext ?_)
  match a with
  | ⟨0, _⟩ => show win0_1.index t (0 : Fin 2) * 2048 + 1 * i.val = i.val; omega
  | ⟨1, _⟩ => show win0_1.index t (1 : Fin 2) * 256 + 1 * j.val = j.val; omega

/-- The neighbours' hidden vectors is handed to every point whole. -/
theorem whole3 (c : Dev nD) (t : Fin cfg0.N) (i : Fin 2048) (j : Fin 32) :
    iblk m c 3 t (ix2 i j) = V m c main_v8 (ix2 i j) := by
  obtain ⟨_, _, _, _, _, _, e1, e1', e3, e3', e4, e4', e5, e6, e6', e7, e8, e8', e9, e9', e10⟩ := idx_facts t
  show V m c main_v8 (((cfg0.win 3).blk t).view.emb (ix2 i j)) = V m c main_v8 (ix2 i j)
  refine congrArg _ (funext fun a => Fin.ext ?_)
  match a with
  | ⟨0, _⟩ => show win0_3.index t (0 : Fin 2) * 2048 + 1 * i.val = i.val; omega
  | ⟨1, _⟩ => show win0_3.index t (1 : Fin 2) * 32 + 1 * j.val = j.val; omega

/-- The first perceptron's first weight matrix is handed to every point whole. -/
theorem whole4 (c : Dev nD) (t : Fin cfg0.N) (i : Fin 256) (j : Fin 32) :
    iblk m c 4 t (ix2 i j) = V m c main_arg4 (ix2 i j) := by
  obtain ⟨_, _, _, _, _, _, e1, e1', e3, e3', e4, e4', e5, e6, e6', e7, e8, e8', e9, e9', e10⟩ := idx_facts t
  show V m c main_arg4 (((cfg0.win 4).blk t).view.emb (ix2 i j)) = V m c main_arg4 (ix2 i j)
  refine congrArg _ (funext fun a => Fin.ext ?_)
  match a with
  | ⟨0, _⟩ => show win0_4.index t (0 : Fin 2) * 256 + 1 * i.val = i.val; omega
  | ⟨1, _⟩ => show win0_4.index t (1 : Fin 2) * 32 + 1 * j.val = j.val; omega

/-- The first perceptron's first bias is handed to every point whole. -/
theorem whole5 (c : Dev nD) (t : Fin cfg0.N) (i : Fin 32) :
    iblk m c 5 t (ix1 i) = V m c main_arg5 (ix1 i) := by
  obtain ⟨_, _, _, _, _, _, e1, e1', e3, e3', e4, e4', e5, e6, e6', e7, e8, e8', e9, e9', e10⟩ := idx_facts t
  show V m c main_arg5 (((cfg0.win 5).blk t).view.emb (ix1 i)) = V m c main_arg5 (ix1 i)
  refine congrArg _ (funext fun a => Fin.ext ?_)
  match a with
  | ⟨0, _⟩ => show win0_5.index t (0 : Fin 1) * 32 + 1 * i.val = i.val; omega

/-- The first perceptron's second weight matrix is handed to every point whole. -/
theorem whole6 (c : Dev nD) (t : Fin cfg0.N) (i : Fin 32) (j : Fin 32) :
    iblk m c 6 t (ix2 i j) = V m c main_arg6 (ix2 i j) := by
  obtain ⟨_, _, _, _, _, _, e1, e1', e3, e3', e4, e4', e5, e6, e6', e7, e8, e8', e9, e9', e10⟩ := idx_facts t
  show V m c main_arg6 (((cfg0.win 6).blk t).view.emb (ix2 i j)) = V m c main_arg6 (ix2 i j)
  refine congrArg _ (funext fun a => Fin.ext ?_)
  match a with
  | ⟨0, _⟩ => show win0_6.index t (0 : Fin 2) * 32 + 1 * i.val = i.val; omega
  | ⟨1, _⟩ => show win0_6.index t (1 : Fin 2) * 32 + 1 * j.val = j.val; omega

/-- The first perceptron's second bias is handed to every point whole. -/
theorem whole7 (c : Dev nD) (t : Fin cfg0.N) (i : Fin 32) :
    iblk m c 7 t (ix1 i) = V m c main_arg7 (ix1 i) := by
  obtain ⟨_, _, _, _, _, _, e1, e1', e3, e3', e4, e4', e5, e6, e6', e7, e8, e8', e9, e9', e10⟩ := idx_facts t
  show V m c main_arg7 (((cfg0.win 7).blk t).view.emb (ix1 i)) = V m c main_arg7 (ix1 i)
  refine congrArg _ (funext fun a => Fin.ext ?_)
  match a with
  | ⟨0, _⟩ => show win0_7.index t (0 : Fin 1) * 32 + 1 * i.val = i.val; omega

/-- The upper half of the stacked linear map is handed to every point whole. -/
theorem whole8 (c : Dev nD) (t : Fin cfg0.N) (i : Fin 256) (j : Fin 256) :
    iblk m c 8 t (ix2 i j) = V m c main_v9 (ix2 i j) := by
  obtain ⟨_, _, _, _, _, _, e1, e1', e3, e3', e4, e4', e5, e6, e6', e7, e8, e8', e9, e9', e10⟩ := idx_facts t
  show V m c main_v9 (((cfg0.win 8).blk t).view.emb (ix2 i j)) = V m c main_v9 (ix2 i j)
  refine congrArg _ (funext fun a => Fin.ext ?_)
  match a with
  | ⟨0, _⟩ => show win0_8.index t (0 : Fin 2) * 256 + 1 * i.val = i.val; omega
  | ⟨1, _⟩ => show win0_8.index t (1 : Fin 2) * 256 + 1 * j.val = j.val; omega

/-- The lower half of the stacked linear map is handed to every point whole. -/
theorem whole9 (c : Dev nD) (t : Fin cfg0.N) (i : Fin 256) (j : Fin 256) :
    iblk m c 9 t (ix2 i j) = V m c main_v10 (ix2 i j) := by
  obtain ⟨_, _, _, _, _, _, e1, e1', e3, e3', e4, e4', e5, e6, e6', e7, e8, e8', e9, e9', e10⟩ := idx_facts t
  show V m c main_v10 (((cfg0.win 9).blk t).view.emb (ix2 i j)) = V m c main_v10 (ix2 i j)
  refine congrArg _ (funext fun a => Fin.ext ?_)
  match a with
  | ⟨0, _⟩ => show win0_9.index t (0 : Fin 2) * 256 + 1 * i.val = i.val; omega
  | ⟨1, _⟩ => show win0_9.index t (1 : Fin 2) * 256 + 1 * j.val = j.val; omega

/-- The last layer's bias is handed to every point whole. -/
theorem whole10 (c : Dev nD) (t : Fin cfg0.N) (i : Fin 256) :
    iblk m c 10 t (ix1 i) = V m c main_arg17 (ix1 i) := by
  obtain ⟨_, _, _, _, _, _, e1, e1', e3, e3', e4, e4', e5, e6, e6', e7, e8, e8', e9, e9', e10⟩ := idx_facts t
  show V m c main_arg17 (((cfg0.win 10).blk t).view.emb (ix1 i)) = V m c main_arg17 (ix1 i)
  refine congrArg _ (funext fun a => Fin.ext ?_)
  match a with
  | ⟨0, _⟩ => show win0_10.index t (0 : Fin 1) * 256 + 1 * i.val = i.val; omega

/-! ## What each point writes back, and the whole array -/

/-- The output array after the run, as a function of the argument arrays. -/
abbrev G (c : Dev nD) : S2048x256.Idx → EReal :=
  layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17))

/-- Entry `(p, q)` of the output's block at point `t` is entry `(512 t + p, q)` of the array. -/
theorem outIdx (t : Fin cfg0.N) (p : Fin 512) (q : Fin 256) :
    ((cfg0.win 11).blk t).view.emb (ix2 p q) = ix2 (rowOf t p) q := by
  obtain ⟨_, _, _, _, e11, e11', _⟩ := idx_facts t
  refine funext fun a => Fin.ext ?_
  match a with
  | ⟨0, _⟩ => show win0_11.index t (0 : Fin 2) * 512 + 1 * p.val = 512 * t.val + p.val; omega
  | ⟨1, _⟩ => show win0_11.index t (1 : Fin 2) * 256 + 1 * q.val = q.val; omega

/-- WHAT POINT `t` WRITES BACK is block `t` of `G`. -/
theorem stored_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  unfold out0_11
  rw [View.canon_unit_zero zero2]
  simp only [View.ld_unit_zero (S := S512x256) zero2, View.ld_unit_zero (S := S2048x256) zero2,
    View.ld_unit_zero (S := S512x2048) zero2, View.ld_unit_zero (S := S2048x32) zero2, View.ld_unit_zero (S := S256x32) zero2,
    View.ld_unit_zero (S := S32) zero1, View.ld_unit_zero (S := S32x32) zero2, View.ld_unit_zero (S := S256x256) zero2,
    View.ld_unit_zero (S := S256) zero1]
  funext j
  obtain ⟨p, q, rfl⟩ : ∃ (p : Fin 512) (q : Fin 256), j = ix2 p q := ⟨j 0, j 1, eq_ix2 (n0 := 512) (n1 := 256) j⟩
  show k0_pay1 (F := Ideal) (iblk m c 0 t)
      (k0_pay2 (F := Ideal) (iblk m c 0 t) (iblk m c 1 t) (iblk m c 2 t) (iblk m c 3 t) (iblk m c 4 t) (iblk m c 5 t)
        (iblk m c 6 t) (iblk m c 7 t)) (iblk m c 8 t) (iblk m c 9 t) (iblk m c 10 t) (ix2 p q)
    = G m c (((cfg0.win 11).blk t).view.emb (ix2 p q))
  rw [outIdx]
  refine (Cert.KernelIdeal.RowValue.stored_apply (iblk m c 0 t) (iblk m c 1 t) (iblk m c 2 t) (iblk m c 3 t) (iblk m c 4 t)
    (iblk m c 5 t) (iblk m c 6 t) (iblk m c 7 t) (iblk m c 8 t) (iblk m c 9 t) (iblk m c 10 t) p q).trans ?_
  show _ = attnRow _ _ _ _ _ _ _ _ _ _ _ q
  refine congrFun (attnRow_congr
    (funext fun k => (queryBlock m c t p k).trans (congrFun (V_main_arg0 m c) _))
    (funext fun n => (maskBlock m c t p n).trans (congrFun (V_main_arg3 m c) _))
    (funext fun n => funext fun d => (whole1 m c t n d).trans (congrFun (V_main_arg1 m c) _))
    (funext fun n => funext fun j => (whole3 m c t n j).trans (neibTable_apply m c n j))
    (funext fun k => funext fun j => (whole4 m c t k j).trans (congrFun (V_main_arg4 m c) _))
    (funext fun j => (whole5 m c t j).trans (congrFun (V_main_arg5 m c) _))
    (funext fun k => funext fun j => (whole6 m c t k j).trans (congrFun (V_main_arg6 m c) _))
    (funext fun j => (whole7 m c t j).trans (congrFun (V_main_arg7 m c) _))
    (funext fun d => funext fun e => (whole8 m c t d e).trans (upperHalf_apply m c d e))
    (funext fun d => funext fun e => (whole9 m c t d e).trans (lowerHalf_apply m c d e))
    (funext fun e => (whole10 m c t e).trans (congrFun (V_main_arg17 m c) _))) q

/-- An index of the array is in point `t`'s block iff each coordinate is in the block's range on its axis. -/
theorem mem_blk (t : Fin cfg0.N) (i : S2048x256.Idx) :
    i ∈ ((cfg0.win 11).blk t).view.set ↔ ∀ a : Fin 2, win0_11.index t a * S512x256.size a ≤ (i a).val
      ∧ (i a).val < win0_11.index t a * S512x256.size a + S512x256.size a := by
  show i ∈ ((View.whole main_v11).slice (win0_11.rect t)).set ↔ _
  rw [View.set_slice_whole, Rect.mem_set_unit]
  exact Iff.rfl

/-- Row `r` is in block `r / 512`: the four blocks cover the array. -/
theorem covered (i : S2048x256.Idx) :
    ∃ t : Fin cfg0.N, (cfg0.win 11).flush t = true ∧ i ∈ ((cfg0.win 11).blk t).view.set := by
  have hi0 : (i 0).val < 2048 := (i 0).isLt
  have hi1 : (i 1).val < 256 := (i 1).isLt
  have ht : (i 0).val / 512 < 4 := by omega
  refine ⟨⟨(i 0).val / 512, ht⟩, flush0_11 _, ?_⟩
  obtain ⟨_, _, _, _, e11, e11', _⟩ := idx_facts ⟨(i 0).val / 512, ht⟩
  rw [mem_blk]
  intro a
  match a with
  | ⟨0, _⟩ =>
    show win0_11.index ⟨(i 0).val / 512, ht⟩ (0 : Fin 2) * 512 ≤ (i 0).val
      ∧ (i 0).val < win0_11.index ⟨(i 0).val / 512, ht⟩ (0 : Fin 2) * 512 + 512
    rw [e11]; show (i 0).val / 512 * 512 ≤ (i 0).val ∧ (i 0).val < (i 0).val / 512 * 512 + 512; omega
  | ⟨1, _⟩ =>
    show win0_11.index ⟨(i 0).val / 512, ht⟩ (1 : Fin 2) * 256 ≤ (i 1).val
      ∧ (i 1).val < win0_11.index ⟨(i 0).val / 512, ht⟩ (1 : Fin 2) * 256 + 256
    rw [e11']; omega

/-- THE ARRAY after the run is `G`. -/
theorem final (c : Dev nD) : (dats m 0 c).arrAt 11 cfg0.N = G m c :=
  (dats m 0 c).arrAt_eq_of_cover 11 (G m c) (fun t _ => stored_eq m c t) covered

/-- The kernel's run: the output array ends at `G` of the argument arrays, the arguments unchanged. -/
theorem run : θ_run defs (onTc (τ := τ) (main (F := Ideal))) ⟨m, fun _ => 0, ρ⟩ fun r => ∀ c : Dev nD,
      r.2.mem ((c : Thread nD τ).loc main_v11) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (Value.run_blocks m ρ)

end Cert.KernelIdeal.ArrayValue

end
-- ==== Proof.ReferenceRun.lean ====
/-
  The reference program's run, read back, and its result read at an index.

  The reference is a straight line of 65 host operations. Its run is taken in two stretches: the first 52 operations end
  with the averaged neighbour features (after their logistic), the last 13 lay the query features and that average side
  by side and apply the last layer. Cut there, the two arrays the concatenation joins are contents of buffers at the start of the
  second stretch, and each stretch's composed term is a plain tree of operations of the buffers it starts from. The
  composed result is written in named stages — the two perceptrons, the masked scores, the softmax, the
  average, the last layer — and `result_apply` reads it at an index as `AttnRow.layer` of the argument arrays.
-/
import proofs.«157529_j54494545052270_2_alg».proof.Proof.Gen.ReferenceIdeal
import proofs.«157529_j54494545052270_2_alg».proof.Proof.HostRow
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.AttnRow

variable {F : FTy → Type} [FloatOps F]

/-! ## The operations, in two stretches -/

/-- The first 52 operations: up to the averaged neighbour features. -/
abbrev opsA : List (HloOp τ sig (Elt F)) :=
  [
    binary main_arg0 main_arg4 main_v0 ((fun l r => Host.dotGeneral dot_S2048x256_S256x32_S2048x32_1_0_0_1_n_n none l r) : (⟨S2048x256, .f32⟩ : BufTy).Contents (Elt F) → (⟨S256x32, .f32⟩ : BufTy).Contents (Elt F) → (⟨S2048x32, .f32⟩ : BufTy).Contents (Elt F)),
    unary main_arg5 main_v1 (broadcastInDim S1x32 ![1] bcast_S32_S1x32_1 : (⟨S32, .f32⟩ : BufTy).Contents (Elt F) → (⟨S1x32, .f32⟩ : BufTy).Contents (Elt F)),
    unary main_v1 main_v2 (broadcastInDim S2048x32 ![0, 1] bcast_S1x32_S2048x32_0_1 : (⟨S1x32, .f32⟩ : BufTy).Contents (Elt F) → (⟨S2048x32, .f32⟩ : BufTy).Contents (Elt F)),
    binary main_v0 main_v2 main_v3 (addf : (⟨S2048x32, .f32⟩ : BufTy).Contents (Elt F) → (⟨S2048x32, .f32⟩ : BufTy).Contents (Elt F) → (⟨S2048x32, .f32⟩ : BufTy).Contents (Elt F)),
    unary main_v3 main_v4 (Host.tanh : (⟨S2048x32, .f32⟩ : BufTy).Contents (Elt F) → (⟨S2048x32, .f32⟩ : BufTy).Contents (Elt F)),
    binary main_v4 main_arg6 main_v5 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    unary main_arg7 main_v6 (broadcastInDim S1x32 ![1] bcast_S32_S1x32_1 : (⟨S32, .f32⟩ : BufTy).Contents (Elt F) → (⟨S1x32, .f32⟩ : BufTy).Contents (Elt F)),
    unary main_v6 main_v7 (broadcastInDim S2048x32 ![0, 1] bcast_S1x32_S2048x32_0_1 : (⟨S1x32, .f32⟩ : BufTy).Contents (Elt F) → (⟨S2048x32, .f32⟩ : BufTy).Contents (Elt F)),
    binary main_v5 main_v7 main_v8 (addf : (⟨S2048x32, .f32⟩ : BufTy).Contents (Elt F) → (⟨S2048x32, .f32⟩ : BufTy).Contents (Elt F) → (⟨S2048x32, .f32⟩ : BufTy).Contents (Elt F)),
    binary main_arg1 main_arg8 main_v9 ((fun l r => Host.dotGeneral dot_S2048x256_S256x32_S2048x32_1_0_0_1_n_n none l r) : (⟨S2048x256, .f32⟩ : BufTy).Contents (Elt F) → (⟨S256x32, .f32⟩ : BufTy).Contents (Elt F) → (⟨S2048x32, .f32⟩ : BufTy).Contents (Elt F)),
    unary main_arg9 main_v10 (broadcastInDim S1x32 ![1] bcast_S32_S1x32_1 : (⟨S32, .f32⟩ : BufTy).Contents (Elt F) → (⟨S1x32, .f32⟩ : BufTy).Contents (Elt F)),
    unary main_v10 main_v11 (broadcastInDim S2048x32 ![0, 1] bcast_S1x32_S2048x32_0_1 : (⟨S1x32, .f32⟩ : BufTy).Contents (Elt F) → (⟨S2048x32, .f32⟩ : BufTy).Contents (Elt F)),
    binary main_v9 main_v11 main_v12 (addf : (⟨S2048x32, .f32⟩ : BufTy).Contents (Elt F) → (⟨S2048x32, .f32⟩ : BufTy).Contents (Elt F) → (⟨S2048x32, .f32⟩ : BufTy).Contents (Elt F)),
    unary main_v12 main_v13 (Host.tanh : (⟨S2048x32, .f32⟩ : BufTy).Contents (Elt F) → (⟨S2048x32, .f32⟩ : BufTy).Contents (Elt F)),
    binary main_v13 main_arg10 main_v14 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    unary main_arg11 main_v15 (broadcastInDim S1x32 ![1] bcast_S32_S1x32_1 : (⟨S32, .f32⟩ : BufTy).Contents (Elt F) → (⟨S1x32, .f32⟩ : BufTy).Contents (Elt F)),
    unary main_v15 main_v16 (broadcastInDim S2048x32 ![0, 1] bcast_S1x32_S2048x32_0_1 : (⟨S1x32, .f32⟩ : BufTy).Contents (Elt F) → (⟨S2048x32, .f32⟩ : BufTy).Contents (Elt F)),
    binary main_v14 main_v16 main_v17 (addf : (⟨S2048x32, .f32⟩ : BufTy).Contents (Elt F) → (⟨S2048x32, .f32⟩ : BufTy).Contents (Elt F) → (⟨S2048x32, .f32⟩ : BufTy).Contents (Elt F)),
    binary main_arg2 main_arg12 main_v18 ((fun l r => Host.dotGeneral dot_S4194304x16_S16x32_S4194304x32_1_0_0_1_n_n none l r) : (⟨S4194304x16, .f32⟩ : BufTy).Contents (Elt F) → (⟨S16x32, .f32⟩ : BufTy).Contents (Elt F) → (⟨S4194304x32, .f32⟩ : BufTy).Contents (Elt F)),
    unary main_arg13 main_v19 (broadcastInDim S1x32 ![1] bcast_S32_S1x32_1 : (⟨S32, .f32⟩ : BufTy).Contents (Elt F) → (⟨S1x32, .f32⟩ : BufTy).Contents (Elt F)),
    unary main_v19 main_v20 (broadcastInDim S4194304x32 ![0, 1] bcast_S1x32_S4194304x32_0_1 : (⟨S1x32, .f32⟩ : BufTy).Contents (Elt F) → (⟨S4194304x32, .f32⟩ : BufTy).Contents (Elt F)),
    binary main_v18 main_v20 main_v21 (addf : (⟨S4194304x32, .f32⟩ : BufTy).Contents (Elt F) → (⟨S4194304x32, .f32⟩ : BufTy).Contents (Elt F) → (⟨S4194304x32, .f32⟩ : BufTy).Contents (Elt F)),
    unary main_v21 main_v22 (Host.tanh : (⟨S4194304x32, .f32⟩ : BufTy).Contents (Elt F) → (⟨S4194304x32, .f32⟩ : BufTy).Contents (Elt F)),
    binary main_v22 main_arg14 main_v23 ((fun l r => Host.dotGeneral dot_S4194304x32_S32x32_S4194304x32_1_0_0_1_n_n none l r) : (⟨S4194304x32, .f32⟩ : BufTy).Contents (Elt F) → (⟨S32x32, .f32⟩ : BufTy).Contents (Elt F) → (⟨S4194304x32, .f32⟩ : BufTy).Contents (Elt F)),
    unary main_arg15 main_v24 (broadcastInDim S1x32 ![1] bcast_S32_S1x32_1 : (⟨S32, .f32⟩ : BufTy).Contents (Elt F) → (⟨S1x32, .f32⟩ : BufTy).Contents (Elt F)),
    unary main_v24 main_v25 (broadcastInDim S4194304x32 ![0, 1] bcast_S1x32_S4194304x32_0_1 : (⟨S1x32, .f32⟩ : BufTy).Contents (Elt F) → (⟨S4194304x32, .f32⟩ : BufTy).Contents (Elt F)),
    binary main_v23 main_v25 main_v26 (addf : (⟨S4194304x32, .f32⟩ : BufTy).Contents (Elt F) → (⟨S4194304x32, .f32⟩ : BufTy).Contents (Elt F) → (⟨S4194304x32, .f32⟩ : BufTy).Contents (Elt F)),
    binary main_v8 main_v17 main_v27 ((fun l r => Host.dotGeneral dot_S2048x32_S2048x32_S2048x2048_1_1_0_0_n_n none l r) : (⟨S2048x32, .f32⟩ : BufTy).Contents (Elt F) → (⟨S2048x32, .f32⟩ : BufTy).Contents (Elt F) → (⟨S2048x2048, .f32⟩ : BufTy).Contents (Elt F)),
    binary main_v27 main_arg3 main_v28 (mulf : (⟨S2048x2048, .f32⟩ : BufTy).Contents (Elt F) → (⟨S2048x2048, .f32⟩ : BufTy).Contents (Elt F) → (⟨S2048x2048, .f32⟩ : BufTy).Contents (Elt F)),
    nullary main_cst (constant S_ .f32 0xFF800000#32),
    binary main_v28 main_cst main_v29 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_cst_0 (constant S_ .f32 0xFF800000#32),
    unary main_cst_0 main_v30 (broadcastInDim S2048 ![] bcast_S_S2048 : (⟨S_, .f32⟩ : BufTy).Contents (Elt F) → (⟨S2048, .f32⟩ : BufTy).Contents (Elt F)),
    binary main_v30 main_v29 main_v31 (maximumf : (⟨S2048, .f32⟩ : BufTy).Contents (Elt F) → (⟨S2048, .f32⟩ : BufTy).Contents (Elt F) → (⟨S2048, .f32⟩ : BufTy).Contents (Elt F)),
    unary main_v31 main_v32 (broadcastInDim S2048x1 ![0] bcast_S2048_S2048x1_0 : (⟨S2048, .f32⟩ : BufTy).Contents (Elt F) → (⟨S2048x1, .f32⟩ : BufTy).Contents (Elt F)),
    unary main_v32 main_v33 (broadcastInDim S2048x2048 ![0, 1] bcast_S2048x1_S2048x2048_0_1 : (⟨S2048x1, .f32⟩ : BufTy).Contents (Elt F) → (⟨S2048x2048, .f32⟩ : BufTy).Contents (Elt F)),
    binary main_v28 main_v33 main_v34 (subf : (⟨S2048x2048, .f32⟩ : BufTy).Contents (Elt F) → (⟨S2048x2048, .f32⟩ : BufTy).Contents (Elt F) → (⟨S2048x2048, .f32⟩ : BufTy).Contents (Elt F)),
    unary main_v34 main_v35 (Host.exp : (⟨S2048x2048, .f32⟩ : BufTy).Contents (Elt F) → (⟨S2048x2048, .f32⟩ : BufTy).Contents (Elt F)),
    nullary main_cst_1 (constant S_ .f32 0x00000000#32),
    binary main_v35 main_cst_1 main_v36 ((fun x v => Host.reduceAdd x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v36 main_v37 (broadcastInDim S2048x1 ![0] bcast_S2048_S2048x1_0 : (⟨S2048, .f32⟩ : BufTy).Contents (Elt F) → (⟨S2048x1, .f32⟩ : BufTy).Contents (Elt F)),
    unary main_v37 main_v38 (broadcastInDim S2048x2048 ![0, 1] bcast_S2048x1_S2048x2048_0_1 : (⟨S2048x1, .f32⟩ : BufTy).Contents (Elt F) → (⟨S2048x2048, .f32⟩ : BufTy).Contents (Elt F)),
    binary main_v35 main_v38 main_v39 (Host.divf : (⟨S2048x2048, .f32⟩ : BufTy).Contents (Elt F) → (⟨S2048x2048, .f32⟩ : BufTy).Contents (Elt F) → (⟨S2048x2048, .f32⟩ : BufTy).Contents (Elt F)),
    binary main_v39 main_arg1 main_v40 ((fun l r => Host.dotGeneral dot_S2048x2048_S2048x256_S2048x256_1_0_0_1_n_n none l r) : (⟨S2048x2048, .f32⟩ : BufTy).Contents (Elt F) → (⟨S2048x256, .f32⟩ : BufTy).Contents (Elt F) → (⟨S2048x256, .f32⟩ : BufTy).Contents (Elt F)),
    unary main_v40 main_v41 (Host.negf : (⟨S2048x256, .f32⟩ : BufTy).Contents (Elt F) → (⟨S2048x256, .f32⟩ : BufTy).Contents (Elt F)),
    unary main_v41 main_v42 (Host.exp : (⟨S2048x256, .f32⟩ : BufTy).Contents (Elt F) → (⟨S2048x256, .f32⟩ : BufTy).Contents (Elt F)),
    nullary main_cst_2 (constant S_ .f32 0x3F800000#32),
    unary main_cst_2 main_v43 (broadcastInDim S2048x256 ![] bcast_S_S2048x256 : (⟨S_, .f32⟩ : BufTy).Contents (Elt F) → (⟨S2048x256, .f32⟩ : BufTy).Contents (Elt F)),
    binary main_v43 main_v42 main_v44 (addf : (⟨S2048x256, .f32⟩ : BufTy).Contents (Elt F) → (⟨S2048x256, .f32⟩ : BufTy).Contents (Elt F) → (⟨S2048x256, .f32⟩ : BufTy).Contents (Elt F)),
    nullary main_cst_3 (constant S_ .f32 0x3F800000#32),
    unary main_cst_3 main_v45 (broadcastInDim S2048x256 ![] bcast_S_S2048x256 : (⟨S_, .f32⟩ : BufTy).Contents (Elt F) → (⟨S2048x256, .f32⟩ : BufTy).Contents (Elt F)),
    binary main_v45 main_v44 main_v46 (Host.divf : (⟨S2048x256, .f32⟩ : BufTy).Contents (Elt F) → (⟨S2048x256, .f32⟩ : BufTy).Contents (Elt F) → (⟨S2048x256, .f32⟩ : BufTy).Contents (Elt F)) ]

/-- The last 13 operations: the last layer. -/
abbrev opsB : List (HloOp τ sig (Elt F)) :=
  [
    binary main_arg0 main_v46 main_v47 ((fun a b => concatenate S2048x512 1 [⟨S2048x256, a⟩, ⟨S2048x256, b⟩] concatenates_S2048x256_S2048x256_S2048x512_d1) : (⟨S2048x256, .f32⟩ : BufTy).Contents (Elt F) → (⟨S2048x256, .f32⟩ : BufTy).Contents (Elt F) → (⟨S2048x512, .f32⟩ : BufTy).Contents (Elt F)),
    binary main_v47 main_arg16 main_v48 ((fun l r => Host.dotGeneral dot_S2048x512_S512x256_S2048x256_1_0_0_1_n_n none l r) : (⟨S2048x512, .f32⟩ : BufTy).Contents (Elt F) → (⟨S512x256, .f32⟩ : BufTy).Contents (Elt F) → (⟨S2048x256, .f32⟩ : BufTy).Contents (Elt F)),
    unary main_arg17 main_v49 (broadcastInDim S1x256 ![1] bcast_S256_S1x256_1 : (⟨S256, .f32⟩ : BufTy).Contents (Elt F) → (⟨S1x256, .f32⟩ : BufTy).Contents (Elt F)),
    unary main_v49 main_v50 (broadcastInDim S2048x256 ![0, 1] bcast_S1x256_S2048x256_0_1 : (⟨S1x256, .f32⟩ : BufTy).Contents (Elt F) → (⟨S2048x256, .f32⟩ : BufTy).Contents (Elt F)),
    binary main_v48 main_v50 main_v51 (addf : (⟨S2048x256, .f32⟩ : BufTy).Contents (Elt F) → (⟨S2048x256, .f32⟩ : BufTy).Contents (Elt F) → (⟨S2048x256, .f32⟩ : BufTy).Contents (Elt F)),
    unary main_v51 main_v52 (Host.negf : (⟨S2048x256, .f32⟩ : BufTy).Contents (Elt F) → (⟨S2048x256, .f32⟩ : BufTy).Contents (Elt F)),
    unary main_v52 main_v53 (Host.exp : (⟨S2048x256, .f32⟩ : BufTy).Contents (Elt F) → (⟨S2048x256, .f32⟩ : BufTy).Contents (Elt F)),
    nullary main_cst_4 (constant S_ .f32 0x3F800000#32),
    unary main_cst_4 main_v54 (broadcastInDim S2048x256 ![] bcast_S_S2048x256 : (⟨S_, .f32⟩ : BufTy).Contents (Elt F) → (⟨S2048x256, .f32⟩ : BufTy).Contents (Elt F)),
    binary main_v54 main_v53 main_v55 (addf : (⟨S2048x256, .f32⟩ : BufTy).Contents (Elt F) → (⟨S2048x256, .f32⟩ : BufTy).Contents (Elt F) → (⟨S2048x256, .f32⟩ : BufTy).Contents (Elt F)),
    nullary main_cst_5 (constant S_ .f32 0x3F800000#32),
    unary main_cst_5 main_v56 (broadcastInDim S2048x256 ![] bcast_S_S2048x256 : (⟨S_, .f32⟩ : BufTy).Contents (Elt F) → (⟨S2048x256, .f32⟩ : BufTy).Contents (Elt F)),
    binary main_v56 main_v55 main_v57 (Host.divf : (⟨S2048x256, .f32⟩ : BufTy).Contents (Elt F) → (⟨S2048x256, .f32⟩ : BufTy).Contents (Elt F) → (⟨S2048x256, .f32⟩ : BufTy).Contents (Elt F)) ]

set_option maxRecDepth 8192 in
set_option maxHeartbeats 4000000 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (opsA ++ opsB : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., unary_bufs_sub .., binary_bufs_sub .., unary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- Two stretches run one after the other: the second starts from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The result, in stages -/

/-- A perceptron on all rows: linear, tanh, linear. -/
def perceptron (x : (⟨S2048x256, .f32⟩ : BufTy).Contents (Elt F)) (w1 : (⟨S256x32, .f32⟩ : BufTy).Contents (Elt F))
    (b1 : (⟨S32, .f32⟩ : BufTy).Contents (Elt F)) (w2 : (⟨S32x32, .f32⟩ : BufTy).Contents (Elt F))
    (b2 : (⟨S32, .f32⟩ : BufTy).Contents (Elt F)) : (⟨S2048x32, .f32⟩ : BufTy).Contents (Elt F) :=
  addf (Host.dotGeneral dot_S2048x32_S32x32_S2048x32_1_0_0_1_n_n none
      (Host.tanh (addf (Host.dotGeneral dot_S2048x256_S256x32_S2048x32_1_0_0_1_n_n none x w1) (broadcastInDim S2048x32 ![0, 1] bcast_S1x32_S2048x32_0_1 (broadcastInDim S1x32 ![1] bcast_S32_S1x32_1 b1)))) w2)
    (broadcastInDim S2048x32 ![0, 1] bcast_S1x32_S2048x32_0_1 (broadcastInDim S1x32 ![1] bcast_S32_S1x32_1 b2))

/-- The masked scores of every query row against every neighbour. -/
def scores (q na : (⟨S2048x32, .f32⟩ : BufTy).Contents (Elt F)) (mask : (⟨S2048x2048, .f32⟩ : BufTy).Contents (Elt F)) :
    (⟨S2048x2048, .f32⟩ : BufTy).Contents (Elt F) :=
  mulf (Host.dotGeneral dot_S2048x32_S2048x32_S2048x2048_1_1_0_0_n_n none q na) mask

/-- Scores less their row's maximum, exponentiated. -/
def shifted (s : (⟨S2048x2048, .f32⟩ : BufTy).Contents (Elt F)) : (⟨S2048x2048, .f32⟩ : BufTy).Contents (Elt F) :=
  Host.exp (subf s (broadcastInDim S2048x2048 ![0, 1] bcast_S2048x1_S2048x2048_0_1 (broadcastInDim S2048x1 ![0] bcast_S2048_S2048x1_0
    (maximumf (broadcastInDim S2048 ![] bcast_S_S2048 (constant S_ .f32 0xFF800000#32))
      (Host.reduce FloatOps.maximumf s (constant S_ .f32 0xFF800000#32) reducesTo_S2048x2048_S2048_d1 h_S_)))))

/-- Softmax along the rows. -/
def weights (s : (⟨S2048x2048, .f32⟩ : BufTy).Contents (Elt F)) : (⟨S2048x2048, .f32⟩ : BufTy).Contents (Elt F) :=
  Host.divf (shifted s) (broadcastInDim S2048x2048 ![0, 1] bcast_S2048x1_S2048x2048_0_1 (broadcastInDim S2048x1 ![0] bcast_S2048_S2048x1_0
    (Host.reduceAdd (shifted s) (constant S_ .f32 0x00000000#32) reducesTo_S2048x2048_S2048_d1 h_S_)))

/-- The weighted average of the neighbours' features, through the logistic. -/
def averaged (w : (⟨S2048x2048, .f32⟩ : BufTy).Contents (Elt F)) (nb : (⟨S2048x256, .f32⟩ : BufTy).Contents (Elt F)) :
    (⟨S2048x256, .f32⟩ : BufTy).Contents (Elt F) :=
  Host.divf (broadcastInDim S2048x256 ![] bcast_S_S2048x256 (constant S_ .f32 0x3F800000#32)) (addf (broadcastInDim S2048x256 ![] bcast_S_S2048x256 (constant S_ .f32 0x3F800000#32))
    (Host.exp (Host.negf (Host.dotGeneral dot_S2048x2048_S2048x256_S2048x256_1_0_0_1_n_n none w nb))))

/-- The last layer on the query features and the average laid side by side. -/
def lastLayer (x ag : (⟨S2048x256, .f32⟩ : BufTy).Contents (Elt F)) (W : (⟨S512x256, .f32⟩ : BufTy).Contents (Elt F))
    (fb : (⟨S256, .f32⟩ : BufTy).Contents (Elt F)) : (⟨S2048x256, .f32⟩ : BufTy).Contents (Elt F) :=
  Host.divf (broadcastInDim S2048x256 ![] bcast_S_S2048x256 (constant S_ .f32 0x3F800000#32)) (addf (broadcastInDim S2048x256 ![] bcast_S_S2048x256 (constant S_ .f32 0x3F800000#32))
    (Host.exp (Host.negf (addf
      (Host.dotGeneral dot_S2048x512_S512x256_S2048x256_1_0_0_1_n_n none
        (concatenate S2048x512 1 [⟨S2048x256, x⟩, ⟨S2048x256, ag⟩] concatenates_S2048x256_S2048x256_S2048x512_d1) W)
      (broadcastInDim S2048x256 ![0, 1] bcast_S1x256_S2048x256_0_1 (broadcastInDim S1x256 ![1] bcast_S256_S1x256_1 fb))))))

/-- The averaged neighbour features as a function of the argument arrays. -/
def averagedOf (m : (ℓ : Loc nD τ sig) → Buf (Elt F) ℓ) (c : Dev nD) : (⟨S2048x256, .f32⟩ : BufTy).Contents (Elt F) :=
  averaged (weights (scores (perceptron (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)))
      (perceptron (m ((c.tc : Thread nD τ).loc main_arg1)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg3)))) (m ((c.tc : Thread nD τ).loc main_arg1))

/-- The program's result as a function of the argument arrays. -/
def result (m : (ℓ : Loc nD τ sig) → Buf (Elt F) ℓ) (c : Dev nD) : Buf (Elt F) ((c.tc : Thread nD τ).loc main_v57) :=
  lastLayer (m ((c.tc : Thread nD τ).loc main_arg0)) (averagedOf m c) (m ((c.tc : Thread nD τ).loc main_arg16)) (m ((c.tc : Thread nD τ).loc main_arg17))

/-! ## The run -/

set_option maxRecDepth 8192 in
set_option maxHeartbeats 26000000 in
/-- What the first stretch leaves in the buffers the second reads. -/
theorem afterA (m : (ℓ : Loc nD τ sig) → Buf (Elt F) ℓ) (c : Dev nD) :
    after opsA (launchContents m c) (Proc.devRef .tc main_v46) = averagedOf m c
    ∧ after opsA (launchContents m c) (Proc.devRef .tc main_arg0) = (m ((c.tc : Thread nD τ).loc main_arg0))
    ∧ after opsA (launchContents m c) (Proc.devRef .tc main_arg16) = (m ((c.tc : Thread nD τ).loc main_arg16))
    ∧ after opsA (launchContents m c) (Proc.devRef .tc main_arg17) = (m ((c.tc : Thread nD τ).loc main_arg17)) := by
  refine ⟨?_, ?_, ?_, ?_⟩
  · after_results_simp <;> rfl
  · after_results_simp <;> rfl
  · after_results_simp <;> rfl
  · after_results_simp <;> rfl

set_option maxRecDepth 8192 in
set_option maxHeartbeats 26000000 in
/-- The second stretch, from what the first leaves: the program's result. -/
theorem afterAB (m : (ℓ : Loc nD τ sig) → Buf (Elt F) ℓ) (c : Dev nD) :
    after (opsA ++ opsB) (launchContents m c) (Proc.devRef .tc main_v57) = result m c := by
  rw [after_append]
  obtain ⟨h46, h0, h16, h17⟩ := afterA m c
  generalize after opsA (launchContents m c) = W at h46 h0 h16 h17 ⊢
  after_results_simp
  rw [h46, h0, h16, h17]
  rfl

set_option maxRecDepth 8192 in
set_option maxHeartbeats 26000000 in
/-- No operation writes an argument array. -/
theorem kept (m : (ℓ : Loc nD τ sig) → Buf (Elt F) ℓ) (c : Dev nD) :
    after (opsA ++ opsB) (launchContents m c) (Proc.devRef .tc main_arg0) = (m ((c.tc : Thread nD τ).loc main_arg0))
    ∧ after (opsA ++ opsB) (launchContents m c) (Proc.devRef .tc main_arg1) = (m ((c.tc : Thread nD τ).loc main_arg1))
    ∧ after (opsA ++ opsB) (launchContents m c) (Proc.devRef .tc main_arg2) = (m ((c.tc : Thread nD τ).loc main_arg2))
    ∧ after (opsA ++ opsB) (launchContents m c) (Proc.devRef .tc main_arg3) = (m ((c.tc : Thread nD τ).loc main_arg3))
    ∧ after (opsA ++ opsB) (launchContents m c) (Proc.devRef .tc main_arg4) = (m ((c.tc : Thread nD τ).loc main_arg4))
    ∧ after (opsA ++ opsB) (launchContents m c) (Proc.devRef .tc main_arg5) = (m ((c.tc : Thread nD τ).loc main_arg5))
    ∧ after (opsA ++ opsB) (launchContents m c) (Proc.devRef .tc main_arg6) = (m ((c.tc : Thread nD τ).loc main_arg6))
    ∧ after (opsA ++ opsB) (launchContents m c) (Proc.devRef .tc main_arg7) = (m ((c.tc : Thread nD τ).loc main_arg7))
    ∧ after (opsA ++ opsB) (launchContents m c) (Proc.devRef .tc main_arg8) = (m ((c.tc : Thread nD τ).loc main_arg8))
    ∧ after (opsA ++ opsB) (launchContents m c) (Proc.devRef .tc main_arg9) = (m ((c.tc : Thread nD τ).loc main_arg9))
    ∧ after (opsA ++ opsB) (launchContents m c) (Proc.devRef .tc main_arg10) = (m ((c.tc : Thread nD τ).loc main_arg10))
    ∧ after (opsA ++ opsB) (launchContents m c) (Proc.devRef .tc main_arg11) = (m ((c.tc : Thread nD τ).loc main_arg11))
    ∧ after (opsA ++ opsB) (launchContents m c) (Proc.devRef .tc main_arg12) = (m ((c.tc : Thread nD τ).loc main_arg12))
    ∧ after (opsA ++ opsB) (launchContents m c) (Proc.devRef .tc main_arg13) = (m ((c.tc : Thread nD τ).loc main_arg13))
    ∧ after (opsA ++ opsB) (launchContents m c) (Proc.devRef .tc main_arg14) = (m ((c.tc : Thread nD τ).loc main_arg14))
    ∧ after (opsA ++ opsB) (launchContents m c) (Proc.devRef .tc main_arg15) = (m ((c.tc : Thread nD τ).loc main_arg15))
    ∧ after (opsA ++ opsB) (launchContents m c) (Proc.devRef .tc main_arg16) = (m ((c.tc : Thread nD τ).loc main_arg16))
    ∧ after (opsA ++ opsB) (launchContents m c) (Proc.devRef .tc main_arg17) = (m ((c.tc : Thread nD τ).loc main_arg17)) := by
  rw [after_append]
  refine ⟨?_, ?_, ?_, ?_, ?_, ?_, ?_, ?_, ?_, ?_, ?_, ?_, ?_, ?_, ?_, ?_, ?_, ?_⟩ <;> (after_results_simp <;> rfl)

/-- On every device, from any memory with zero counters: every weakly fair execution of @main terminates with the result
    at `result` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      obtain ⟨k0, k1, k2, k3, k4, k5, k6, k7, k8, k9, k10, k11, k12, k13, k14, k15, k16, k17⟩ := kept m c
      exact ⟨(h c main_v57).trans (afterAB m c), (h c main_arg0).trans k0, (h c main_arg1).trans k1, (h c main_arg2).trans k2, (h c main_arg3).trans k3, (h c main_arg4).trans k4, (h c main_arg5).trans k5, (h c main_arg6).trans k6, (h c main_arg7).trans k7, (h c main_arg8).trans k8, (h c main_arg9).trans k9, (h c main_arg10).trans k10, (h c main_arg11).trans k11, (h c main_arg12).trans k12, (h c main_arg13).trans k13, (h c main_arg14).trans k14, (h c main_arg15).trans k15, (h c main_arg16).trans k16, (h c main_arg17).trans k17⟩)
    (run_seq scopedRefs_eq scopedSems_eq defs main (fun _ => opsA ++ opsB) main_eq (fun _ => ops_sub) m ρ)

/-! ## The result at an index -/

/-- The scores at equal hidden vectors. -/
theorem score_congr {H L : ℕ} {q q' : Fin H → EReal} {na na' : Fin L → Fin H → EReal} (mr : Fin L → EReal)
    (hq : q = q') (hna : na = na') : score q na mr = score q' na' mr := by
  subst hq hna
  rfl

/-- The program's result is `AttnRow.layer` of the argument arrays, index by index. -/
theorem result_apply (m : (ℓ : Loc nD τ sig) → Buf (Elt Ideal) ℓ) (c : Dev nD) :
    result m c
      = layer (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg16)) (m ((c.tc : Thread nD τ).loc main_arg17)) := by
  funext i
  obtain ⟨R, q, rfl⟩ : ∃ (R : Fin 2048) (q : Fin 256), i = ix2 R q := ⟨i 0, i 1, eq_ix2 (n0 := 2048) (n1 := 256) i⟩
  refine (Cert.HostRow.output_apply (M := 2048) (O := 256) (m ((c.tc : Thread nD τ).loc main_arg0)) (averagedOf m c) (m ((c.tc : Thread nD τ).loc main_arg16)) (m ((c.tc : Thread nD τ).loc main_arg17)) _ _ _ _ _ R q).trans ?_
  show _ = attnRow _ _ _ _ _ _ _ _ _ _ _ q
  unfold attnRow
  refine congrArg (fun ag => output (fun d => (m ((c.tc : Thread nD τ).loc main_arg0)) (ix2 R d)) ag _ _ _ q) (funext fun d => ?_)
  refine (Cert.HostRow.aggregate_apply (M := 2048) (L := 2048) (D := 256) _ (m ((c.tc : Thread nD τ).loc main_arg1)) _ _ R d).trans ?_
  refine congrArg (fun w => aggregate w (fun n d => (m ((c.tc : Thread nD τ).loc main_arg1)) (ix2 n d)) d) (funext fun n => ?_)
  refine (Cert.HostRow.softmax_apply (M := 2048) (L := 2048) _ _ (by decide) _ _ _ _ R n).trans ?_
  refine congrArg (fun s => softmax s n) (funext fun n' => ?_)
  refine (Cert.HostRow.score_apply (M := 2048) (H := 32) (L := 2048) _ _ (m ((c.tc : Thread nD τ).loc main_arg3)) R n').trans ?_
  exact congrFun (score_congr _
    (funext fun j => Cert.HostRow.hidden_apply (M := 2048) (D := 256) (H := 32) _ _ _ _ _ _ _ _ _ R j)
    (funext fun n => funext fun j => Cert.HostRow.hidden_apply (M := 2048) (D := 256) (H := 32) _ _ _ _ _ _ _ _ _ n j)) n'

end Cert.ReferenceIdeal.RefValue

end
-- ==== Proof.lean ====
/-
  The kernel and the reference compute one function.

  Both programs apply a small attention layer to 2048 query rows against 2048 neighbours. For a query row: a two-layer
  perceptron (tanh between the layers) gives a hidden vector; its inner products with the neighbours' hidden vectors
  (the same kind of perceptron, other weights, applied to the neighbours' features), multiplied entry by entry by the
  row of a mask, are the row's scores; a softmax along the row turns them into weights; the weights average the
  neighbours' features and a logistic is applied; the row's own features and that average, side by side, go through
  one more linear map and a logistic. `AttnRow.attnRow` is this function of one row, `AttnRow.layer` the array of all
  rows.

  The kernel works on four blocks of 512 rows. It takes the neighbours' hidden vectors and the two halves of the last
  linear map ready-made from the host, multiplies the row's features and the average by the two halves separately and
  adds the products, and narrows the softmax weights and the neighbours' features to a shorter float format before
  their product. The reference does everything on the host, on all rows at once, with ONE product of the
  side-by-side matrix and the whole stacked map, and spells the logistic out.

  On the extended reals these differences vanish: a change of float format is the identity; a product into a zero
  accumulator is the host's product; the spelled-out logistic is the logistic; and a sum over the 512 stacked indices is
  the sum over the first 256 plus the sum over the last 256 (`AttnRow.sum_split`), which is all that separates one
  product with the stacked map from the two products with its halves. No cancellation and no distributivity is used, so
  nothing is asked of the inputs: the precondition is never opened.

  `KernelRow` reads the kernel body's stored block entry by entry as `attnRow`; `KernelArray` passes from the four
  blocks to the whole output array; `HostRow` reads each host step at an index; `ReferenceRun` runs the reference and
  reads its result as `layer`. The three frames are the generated frames of the two kernels and the reference's run
  with its result dropped; the idealization rewrote nothing, so there is nothing to preserve.
-/
import proofs.«157529_j54494545052270_2_alg».proof.Defs
import proofs.«157529_j54494545052270_2_alg».proof.Proof.Gen.Kernel
import proofs.«157529_j54494545052270_2_alg».proof.Proof.Gen.Kernel.Skeleton
import proofs.«157529_j54494545052270_2_alg».proof.Proof.Gen.Kernel.Launch
import proofs.«157529_j54494545052270_2_alg».proof.Proof.Gen.Kernel.Points
import proofs.«157529_j54494545052270_2_alg».proof.Proof.Gen.Kernel.Frame
import proofs.«157529_j54494545052270_2_alg».proof.Proof.Gen.KernelIdeal
import proofs.«157529_j54494545052270_2_alg».proof.Proof.Gen.KernelIdeal.Skeleton
import proofs.«157529_j54494545052270_2_alg».proof.Proof.Gen.KernelIdeal.Launch
import proofs.«157529_j54494545052270_2_alg».proof.Proof.Gen.KernelIdeal.Points
import proofs.«157529_j54494545052270_2_alg».proof.Proof.Gen.KernelIdeal.Frame
import proofs.«157529_j54494545052270_2_alg».proof.Proof.Gen.KernelIdeal.Value
import proofs.«157529_j54494545052270_2_alg».proof.Proof.Gen.ReferenceIdeal
import proofs.«157529_j54494545052270_2_alg».proof.Proof.Gen.Pre_finite_inputs
import proofs.«157529_j54494545052270_2_alg».proof.Proof.KernelArray
import proofs.«157529_j54494545052270_2_alg».proof.Proof.ReferenceRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- From memories agreeing on the arguments, the kernel's output array and the reference's result are both
    `AttnRow.layer` of the same argument arrays. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨a0, a1, a2, a3, a4, a5, a6, a7, a8, a9, a10, a11, a12, a13, a14, a15, a16, a17⟩ := hagree c
  rw [Cert.ReferenceIdeal.RefValue.result_apply, a0, a1, a3, a4, a5, a6, a7, a8, a9, a10, a11, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
